-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S10000 : Shape := ⟨1, ![10000]⟩
abbrev S1700000x64 : Shape := ⟨2, ![1700000, 64]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S10000x1, .f32⟩
  | .local _ .vmem, ⟨11, _⟩ => ⟨S10000x1, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x1, .f32⟩
  | .local _ .vmem, ⟨19, _⟩ => ⟨S10000x1, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x64, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x64, .f32⟩
  | .hbm, ⟨89, _⟩ => ⟨S1700000x1, .f32⟩
  | .hbm, ⟨90, _⟩ => ⟨S1700000x64, .f32⟩
  | .hbm, ⟨91, _⟩ => ⟨S1700000x64, .f32⟩
  | .hbm, ⟨92, _⟩ => ⟨S_, .f32⟩
  | .hbm, ⟨93, _⟩ => ⟨S100000x64, .f32⟩
  | .hbm, ⟨94, _⟩ => ⟨S1700000x1, .i32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_call2_v2 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result named.

  Every weakly fair execution of the kernel's @main — three tiled regions among stretches of host operations —
  terminates without a fault, its arguments unchanged, and its result array holds what the last boundary of the
  run's fold of buffer contents holds at the result's buffer: the third region's output array after all ten of its
  write-backs, the region having been entered from the contents the preceding host operations and regions left.
  What that array is, as a function of the arguments, is read off the fold region by region in the modules that
  import this one.
-/
import proofs.«110300_j7413113553701_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' launch, the last thread state read against the final state, and from that reading the
    result's buffer at the last boundary's contents beside each argument at its launch contents. -/
theorem run : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ValueRun

end
-- ==== Proof.KernelWalk.lean ====
/-
  Which boundary of the kernel's run holds what, for the buffers that are computed once and then only read.
-/
import proofs.«110300_j7413113553701_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## Buffers no segment writes keep their contents

The two integer vectors of source and destination nodes (with the self loops appended) and the nodes' coefficient
column are computed by the first stretch of host operations and only read afterwards; the weights and biases are
arguments. Each equation below says that such a buffer holds, at a later boundary of the run, what it held at an
earlier one: a host stretch leaves a buffer it does not write, and a region leaves every buffer but its output
array (its input arrays are read through windows and end as they were entered). -/

/-- Across a region: an input window's array ends as entered. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- The source-node vector, from the first stretch to the third region's entry. -/
theorem src_W4 (c : Dev nD) : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by show StableHlo.after hostOps0_2 (W2 m ρ c) _ = _; after_results
    _ = W1 m ρ c (Proc.devRef .tc main_v5) := by show StableHlo.after hostOps0_1 (W1 m ρ c) _ = _; after_results
theorem src_W6 (c : Dev nD) : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by show StableHlo.after hostOps1 (W4 m ρ c) _ = _; after_results
    _ = W1 m ρ c (Proc.devRef .tc main_v5) := src_W4 m ρ c

/-- The destination-node vector, likewise. -/
theorem dst_W4 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by show StableHlo.after hostOps0_2 (W2 m ρ c) _ = _; after_results
    _ = W1 m ρ c (Proc.devRef .tc main_v6) := by show StableHlo.after hostOps0_1 (W1 m ρ c) _ = _; after_results
theorem dst_W6 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by show StableHlo.after hostOps1 (W4 m ρ c) _ = _; after_results
    _ = W1 m ρ c (Proc.devRef .tc main_v6) := dst_W4 m ρ c

/-- The coefficient column: an input window's array of every region. -/
theorem col_W5 (c : Dev nD) : W5 m ρ c (Proc.devRef .tc main_v15) = W3 m ρ c (Proc.devRef .tc main_v15) :=
  calc W5 m ρ c (Proc.devRef .tc main_v15)
    _ = W4 m ρ c (Proc.devRef .tc main_v15) := by show StableHlo.after hostOps1 (W4 m ρ c) _ = _; after_results
    _ = W3 m ρ c (Proc.devRef .tc main_v15) := W4_in m ρ c 2 rfl
theorem col_W7 (c : Dev nD) : W7 m ρ c (Proc.devRef .tc main_v15) = W3 m ρ c (Proc.devRef .tc main_v15) :=
  calc W7 m ρ c (Proc.devRef .tc main_v15)
    _ = W6 m ρ c (Proc.devRef .tc main_v15) := by show StableHlo.after hostOps2 (W6 m ρ c) _ = _; after_results
    _ = W5 m ρ c (Proc.devRef .tc main_v15) := W6_in m ρ c 2 rfl
    _ = W3 m ρ c (Proc.devRef .tc main_v15) := col_W5 m ρ c

/-- The arguments a region or a later stretch reads, back to the launch memory. -/
theorem arg0_W3 (c : Dev nD) : W3 m ρ c (Proc.devRef .tc main_arg0) = m ((c : Thread nD τ).loc main_arg0) :=
  calc W3 m ρ c (Proc.devRef .tc main_arg0)
    _ = W2 m ρ c (Proc.devRef .tc main_arg0) := by show StableHlo.after hostOps0_2 (W2 m ρ c) _ = _; after_results
    _ = W1 m ρ c (Proc.devRef .tc main_arg0) := by show StableHlo.after hostOps0_1 (W1 m ρ c) _ = _; after_results
    _ = W0 m ρ c (Proc.devRef .tc main_arg0) := by show StableHlo.after hostOps0 (W0 m ρ c) _ = _; after_results
    _ = m ((c : Thread nD τ).loc main_arg0) := rfl
theorem arg2_W3 (c : Dev nD) : W3 m ρ c (Proc.devRef .tc main_arg2) = m ((c : Thread nD τ).loc main_arg2) :=
  calc W3 m ρ c (Proc.devRef .tc main_arg2)
    _ = W2 m ρ c (Proc.devRef .tc main_arg2) := by show StableHlo.after hostOps0_2 (W2 m ρ c) _ = _; after_results
    _ = W1 m ρ c (Proc.devRef .tc main_arg2) := by show StableHlo.after hostOps0_1 (W1 m ρ c) _ = _; after_results
    _ = W0 m ρ c (Proc.devRef .tc main_arg2) := by show StableHlo.after hostOps0 (W0 m ρ c) _ = _; after_results
    _ = m ((c : Thread nD τ).loc main_arg2) := rfl
theorem arg3_W4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by show StableHlo.after hostOps0_2 (W2 m ρ c) _ = _; after_results
    _ = W1 m ρ c (Proc.devRef .tc main_arg3) := by show StableHlo.after hostOps0_1 (W1 m ρ c) _ = _; after_results
    _ = W0 m ρ c (Proc.devRef .tc main_arg3) := by show StableHlo.after hostOps0 (W0 m ρ c) _ = _; after_results
    _ = m ((c : Thread nD τ).loc main_arg3) := rfl
theorem arg4_W5 (c : Dev nD) : W5 m ρ c (Proc.devRef .tc main_arg4) = m ((c : Thread nD τ).loc main_arg4) :=
  calc W5 m ρ c (Proc.devRef .tc main_arg4)
    _ = W4 m ρ c (Proc.devRef .tc main_arg4) := by show StableHlo.after hostOps1 (W4 m ρ c) _ = _; after_results
    _ = W3 m ρ c (Proc.devRef .tc main_arg4) := W4_of_ne m ρ c main_arg4 (by decide)
    _ = W2 m ρ c (Proc.devRef .tc main_arg4) := by show StableHlo.after hostOps0_2 (W2 m ρ c) _ = _; after_results
    _ = W1 m ρ c (Proc.devRef .tc main_arg4) := by show StableHlo.after hostOps0_1 (W1 m ρ c) _ = _; after_results
    _ = W0 m ρ c (Proc.devRef .tc main_arg4) := by show StableHlo.after hostOps0 (W0 m ρ c) _ = _; after_results
    _ = m ((c : Thread nD τ).loc main_arg4) := rfl
theorem arg5_W6 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by show StableHlo.after hostOps1 (W4 m ρ c) _ = _; after_results
    _ = W3 m ρ c (Proc.devRef .tc main_arg5) := W4_of_ne m ρ c main_arg5 (by decide)
    _ = W2 m ρ c (Proc.devRef .tc main_arg5) := by show StableHlo.after hostOps0_2 (W2 m ρ c) _ = _; after_results
    _ = W1 m ρ c (Proc.devRef .tc main_arg5) := by show StableHlo.after hostOps0_1 (W1 m ρ c) _ = _; after_results
    _ = W0 m ρ c (Proc.devRef .tc main_arg5) := by show StableHlo.after hostOps0 (W0 m ρ c) _ = _; after_results
    _ = m ((c : Thread nD τ).loc main_arg5) := rfl

end Cert.KernelIdeal.Fold

end
-- ==== Proof.KernelStages.lean ====
/-
  What the host computes between the kernel's regions: the two neighbourhood sums, and the one-row and one-column
  arrays the regions read the biases and the coefficients through.
-/
import proofs.«110300_j7413113553701_2_alg».proof.Proof.KernelWalk
import Idealize.ShloMosaic.Lib.Pipeline.Value
import Idealize.ShloMosaic.Lib.ValueLayout
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-! ## What each stretch of host operations computes from the boundary before it

Between the regions the host gathers, for each of the 1 700 000 edges (the self loops included), the row of its source
node — its index wrapped once if negative, then clamped — and adds the gathered rows into the rows their destination
nodes name (an edge whose destination is out of range is dropped). The bias vectors reach the regions as one-row
arrays and the nodes' coefficients as a one-column array. -/

/-- The gather's start indices from a vector of node numbers: a negative number has the node count added, and the
    vector is laid out as a column. -/
def wrapCol (s : (⟨S1700000, .i32⟩ : BufTy).Contents (Elt F)) : (⟨S1700000x1, .i32⟩ : BufTy).Contents (Elt F) :=
  broadcastInDim S1700000x1 ![0] bcast_S1700000_S1700000x1_0
    (select (cmpi CmpIPredicate.slt s (broadcastInDim S1700000 ![] bcast_S_S1700000 (constantI S_ 32 0#32)))
      (addi s (broadcastInDim S1700000 ![] bcast_S_S1700000 (constantI S_ 32 100000#32))) s)

/-- The scatter's indices: the destination vector as a column, unwrapped. -/
def asCol (s : (⟨S1700000, .i32⟩ : BufTy).Contents (Elt F)) : (⟨S1700000x1, .i32⟩ : BufTy).Contents (Elt F) :=
  broadcastInDim S1700000x1 ![0] bcast_S1700000_S1700000x1_0 s

/-- The first aggregation: the rows of the first region's output, gathered by source and added by destination. -/
theorem agg1_eq (c : Dev nD) : W5 m ρ c (Proc.devRef .tc main_v26) =
    Host.scatterAdd scatter_S100000x128_S1700000x1_S1700000x128_1_0_0_1
      (broadcastInDim S100000x128 ![] bcast_S_S100000x128 (constant S_ FTy.f32 0x00000000#32))
      (asCol (W1 m ρ c (Proc.devRef .tc main_v6)))
      (Host.gather gather_S100000x128_S1700000x1_S1700000x128_1_0_n_n_0_1_1128 (W4 m ρ c (Proc.devRef .tc main_v16))
        (wrapCol (W1 m ρ c (Proc.devRef .tc main_v5)))) := by
  rw [← src_W4 m ρ c, ← dst_W4 m ρ c]
  show StableHlo.after hostOps1 (W4 m ρ c) (Proc.devRef .tc main_v26) = _
  after_results
  rfl

/-- The second aggregation: the same of the second region's output. -/
theorem agg2_eq (c : Dev nD) : W7 m ρ c (Proc.devRef .tc main_v38) =
    Host.scatterAdd scatter_S100000x64_S1700000x1_S1700000x64_1_0_0_1
      (broadcastInDim S100000x64 ![] bcast_S_S100000x64 (constant S_ FTy.f32 0x00000000#32))
      (asCol (W1 m ρ c (Proc.devRef .tc main_v6)))
      (Host.gather gather_S100000x64_S1700000x1_S1700000x64_1_0_n_n_0_1_164 (W6 m ρ c (Proc.devRef .tc main_v28))
        (wrapCol (W1 m ρ c (Proc.devRef .tc main_v5)))) := by
  rw [← src_W6 m ρ c, ← dst_W6 m ρ c]
  show StableHlo.after hostOps2 (W6 m ρ c) (Proc.devRef .tc main_v38) = _
  after_results
  rfl

/-- The first bias as a one-row array: entry (0, k) is the bias vector's entry k. -/
theorem bias1_apply (c : Dev nD) (u : Fin 1) (k : Fin 128) :
    W5 m ρ c (Proc.devRef .tc main_v27) (ix2 u k) = m ((c : Thread nD τ).loc main_arg3) (ix1 k) := by
  rw [← arg3_W4 m ρ c]
  show StableHlo.after hostOps1 (W4 m ρ c) (Proc.devRef .tc main_v27) (ix2 u k) = _
  after_results
  exact ValueIdx.shapeCast_a_1a_apply _ shapeCasts_S128_S1x128 u k

/-- The second bias as a one-row array. -/
theorem bias2_apply (c : Dev nD) (u : Fin 1) (k : Fin 64) :
    W7 m ρ c (Proc.devRef .tc main_v39) (ix2 u k) = m ((c : Thread nD τ).loc main_arg5) (ix1 k) := by
  rw [← arg5_W6 m ρ c]
  show StableHlo.after hostOps2 (W6 m ρ c) (Proc.devRef .tc main_v39) (ix2 u k) = _
  after_results
  exact ValueIdx.shapeCast_a_1a_apply _ shapeCasts_S64_S1x64 u k

/-- The coefficients as a one-column array: entry (v, 0) is the coefficient vector's entry v. -/
theorem col_apply (c : Dev nD) (v : Fin 100000) (z : Fin 1) :
    W3 m ρ c (Proc.devRef .tc main_v15) (ix2 v z) = W2 m ρ c (Proc.devRef .tc main_v14) (ix1 v) := by
  have key : ∀ V : Valuation τ sig (Elt F),
      StableHlo.after hostOps0_2 V (Proc.devRef .tc main_v15) (ix2 v z) = V (Proc.devRef .tc main_v14) (ix1 v) := by
    intro V
    after_results
    refine shapeCast_apply _ shapeCasts_S100000_S100000x1 _ _ ?_
    have hz : z.val = 0 := by omega
    rw [Shape.rowMajor_val_two, Shape.rowMajor_val_one]
    show v.val = v.val * 1 + z.val
    rw [hz, Nat.mul_one, Nat.add_zero]
  exact key (W2 m ρ c)

end Cert.KernelIdeal.Fold

end
-- ==== Proof.Shared.lean ====
/-
  The node numbers and the coefficients are one function of the edge array in both programs.

  Both programs slice the two rows of the edge array, append the self loops `0, 1, …, 99999` to each, count for every
  node the edges that land on it, and take the reciprocal square root of that count where it is positive (zero
  elsewhere). The kernel does this in its first stretch of host operations; here each of the three results is identified
  with the reference's stage of the same name, as functions of the edge array.
-/
import proofs.«110300_j7413113553701_2_alg».proof.Proof.KernelStages
import proofs.«110300_j7413113553701_2_alg».proof.Proof.RefRead

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem Idealize.ShloMosaic.ValueIdx

variable {F : FTy → Type} [FloatOps F]
variable (m : (ℓ : Loc nD τ sig) → Buf (Elt F) ℓ) (ρ : Dev nD → PrngReg)

/-- The source-node vector is the reference's. -/
theorem src_ref (c : Dev nD) : W1 m ρ c (Proc.devRef .tc main_v5)
    = Cert.ReferenceIdeal.Read.val_main_v3 (F := F) (m ((c : Thread nD τ).loc main_arg1)) := by
  have key : ∀ V : Valuation τ sig (Elt F), StableHlo.after hostOps0 V (Proc.devRef .tc main_v5)
      = Cert.ReferenceIdeal.Read.val_main_v3 (F := F) (V (Proc.devRef .tc main_arg1)) := by
    intro V; after_results; rfl
  exact key (W0 m ρ c)

/-- The destination-node vector is the reference's. -/
theorem dst_ref (c : Dev nD) : W1 m ρ c (Proc.devRef .tc main_v6)
    = Cert.ReferenceIdeal.Read.val_main_v6 (F := F) (m ((c : Thread nD τ).loc main_arg1)) := by
  have key : ∀ V : Valuation τ sig (Elt F), StableHlo.after hostOps0 V (Proc.devRef .tc main_v6)
      = Cert.ReferenceIdeal.Read.val_main_v6 (F := F) (V (Proc.devRef .tc main_arg1)) := by
    intro V; after_results; rfl
  exact key (W0 m ρ c)

/-- The coefficient vector is the reference's. -/
theorem coef_ref (c : Dev nD) : W2 m ρ c (Proc.devRef .tc main_v14)
    = Cert.ReferenceIdeal.Read.val_main_v14 (F := F) (m ((c : Thread nD τ).loc main_arg1)) := by
  have key : ∀ V : Valuation τ sig (Elt F), StableHlo.after hostOps0_1 (StableHlo.after hostOps0 V) (Proc.devRef .tc main_v14)
      = Cert.ReferenceIdeal.Read.val_main_v14 (F := F) (V (Proc.devRef .tc main_arg1)) := by
    intro V; after_results; rfl
  exact key (W0 m ρ c)

end Cert.KernelIdeal.Fold

end
-- ==== Proof.Spec.lean ====
/-
  The pointwise mathematics both programs share, on the extended reals.

  A node's first-layer activation is its aggregated entry plus the bias, clipped below at zero (`relu0`); a
  row of 128 activations is then divided, entry by entry, by its Euclidean norm clamped below at the word
  1e-12 (`rowUnit`). Both are stated with the two float words left as words: the same word stands on both
  sides of every equation, so neither is ever evaluated.
  A sum scaled by a factor that is nonnegative and not +inf is the sum of the scaled terms (`sum_mul_nonneg`):
  on the extended reals multiplication by such a factor distributes over every sum, whatever the terms are
  (infinite ones included), and that is the one law that moves a node's coefficient across a neighbourhood sum.
-/
import Mathlib
import Idealize.ShloMosaic.Lib.ValueIdx
import Idealize.ShloMosaic.PureOps.Ideal.Laws

noncomputable section

namespace Cert.Gcn

open Idealize.ShloMosaic Idealize.ShloMosaic.ValueIdx

/-- Sum plus bias, clipped below at the zero word. -/
def relu0 (s b : EReal) : EReal := max (s + b) (Ideal.ofBits .f32 0x00000000#32)

/-- Entry `k` of a row of 128 divided by the row's Euclidean norm, the norm clamped below at the word 1e-12. -/
def rowUnit (h : Fin 128 → EReal) (k : Fin 128) : EReal :=
  Ideal.div (h k) (max (Ideal.sqrt (∑ f : Fin 128, h f * h f)) (Ideal.ofBits .f32 0x2B8CBCCC#32))

/-- A factor that is nonnegative and not +inf distributes over a finite sum of extended reals. -/
theorem sum_mul_nonneg {ι : Type*} (s : Finset ι) (a : ι → EReal) {D : EReal} (h0 : 0 ≤ D) (ht : D ≠ ⊤) :
    (∑ j ∈ s, a j) * D = ∑ j ∈ s, a j * D := by
  classical
  induction s using Finset.induction_on with
  | empty => simp
  | insert x s hx ih =>
    rw [Finset.sum_insert hx, Finset.sum_insert hx, EReal.right_distrib_of_nonneg_of_ne_top h0 ht, ih]

end Cert.Gcn

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Region0.lean ====
/-
  The first region, from blocks to the array.

  The region's grid has ten points; point t holds rows 10000 t … 10000 t + 9999 of the feature array [100000, 128] and
  of the coefficient column [100000, 1], and the whole weight matrix [128, 128]. Its body stores, at row p and lane q
  of the block, the sum over k of feature (p, k) times weight (k, q), times the row's coefficient (`pay_apply`: a
  matrix product into a zero accumulator, the column broadcast along the lanes). Each block read is the array read at
  block index × block size + the coordinate inside the block, so what point t writes back is block t of ONE array,
  `resultArr` of the three arrays as the region finds them (`flushed_eq`); row r lies in the block of point
  r / 10000 (`cover`), so the result array ends holding `resultArr` everywhere (`final`, `final_apply`).
-/
import proofs.«110300_j7413113553701_2_alg».proof.Proof.Gen.KernelIdeal.Frame
import proofs.«110300_j7413113553701_2_alg».proof.Proof.Spec
import proofs.«110300_j7413113553701_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A column [a, 1] broadcast along the lanes to [a, b] reads, at (p, c), the column's entry p. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- The product's dimension numbers contract the left operand's lanes with the right operand's rows. -/
theorem plainDot : Cert.LibDot.Plain dot_S10000x128_S128x128_S10000x128_1_0_0_1_n_n where
  hrank := rfl
  hs := rfl
  hl0 := fun _ _ => rfl
  hl1 := fun j k => DotDims.lhsIdx_val_of_single dot_S10000x128_S128x128_S10000x128_1_0_0_1_n_n rfl j k
  hr0 := fun j k => DotDims.rhsIdx_val_of_single dot_S10000x128_S128x128_S10000x128_1_0_0_1_n_n rfl j k
  hr1 := fun _ _ => rfl

/-- Entry (v, f) of the result: row v of the features times column f of the weights, scaled by the node's coefficient. -/
def scaledProduct (x : S100000x128.Idx → EReal) (w : S128x128.Idx → EReal) (d : S100000x1.Idx → EReal)
    (v : Fin 100000) (f : Fin 128) : EReal :=
  (∑ k : Fin 128, x (ix2 v k) * w (ix2 k f)) * d (ix2 v 0)

/-- The body's stored value at row p, lane q of a block. -/
theorem pay_apply (x0 : Vec Ideal S10000x128 .f32) (x1 : Vec Ideal S128x128 .f32) (x2 : Vec Ideal S10000x1 .f32)
    (p : Fin 10000) (q : Fin 128) :
    k0_pay1 (F := Ideal) x0 x1 x2 (ix2 p q) = (∑ k : Fin 128, x0 (ix2 p k) * x1 (ix2 k q)) * x2 (ix2 p 0) := by
  unfold k0_pay1
  rw [shapeCast_self, mulf_apply, broadcastTo_a1_ab_apply]
  refine congrArg (· * x2 (ix2 p 0)) ?_
  exact Cert.LibDot.matmul_ix2 plainDot none x0 x1 p q

/-- The result as one array: entry i is `scaledProduct` at i's two coordinates. -/
def resultArr (x : S100000x128.Idx → EReal) (w : S128x128.Idx → EReal) (d : S100000x1.Idx → EReal) :
    S100000x128.Idx → EReal :=
  fun i => scaledProduct x w d (i 0) (i 1)

/-- The index maps over the ten grid points: the row-blocked windows sit at block row t, the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the result array. -/
theorem flushed_eq (c : Dev nD) (t : Fin cfg0.N) :
    (Gen.dat0 (F := Ideal) V c).flushed 3 t
      = ((cfg0.win 3).blk t).view.read (Elt Ideal) (resultArr (V c main_arg0) (V c main_arg2) (V c main_v15)) := by
  show (cfg0.win 3).cut (grid0.coords t) ((Gen.dat0 (F := Ideal) V c).after 3 t) = _
  rw [Gen.after0_3]
  unfold Gen.out0_3
  rw [View.canon_unit_zero hz]
  simp only [View.ld_unit_zero (S := S10000x128) hz, View.ld_unit_zero (S := S128x128) hz, View.ld_unit_zero (S := S10000x1) hz]
  funext j
  obtain ⟨p, q, rfl⟩ : ∃ (p : Fin 10000) (q : Fin 128), j = ix2 p q := ⟨j 0, j 1, eq_ix2 j⟩
  obtain ⟨e00, e01, e10, e11, e20, e21, e30, e31⟩ := idx_facts t
  have ht : t.val < 10 := lt_of_lt_of_eq t.isLt Gen.N_0
  have hp : p.val < 10000 := p.isLt
  -- the array's row under row p of block t
  obtain ⟨r, hr⟩ : ∃ r : Fin 100000, r.val = 10000 * t.val + p.val := ⟨⟨10000 * t.val + p.val, by omega⟩, rfl⟩
  show k0_pay1 (F := Ideal) (Gen.iblk0 V c 0 t) (Gen.iblk0 V c 1 t) (Gen.iblk0 V c 2 t) (ix2 p q)
    = resultArr (V c main_arg0) (V c main_arg2) (V c main_v15) (((cfg0.win 3).blk t).view.emb (ix2 p q))
  refine (pay_apply (Gen.iblk0 V c 0 t) (Gen.iblk0 V c 1 t) (Gen.iblk0 V c 2 t) p q).trans ?_
  have hi : ((cfg0.win 3).blk t).view.emb (ix2 p q) = ix2 r q := by
    funext a; apply Fin.ext
    match a with
    | ⟨0, _⟩ => show win0_3.index t (0 : Fin 2) * 10000 + 1 * p.val = r.val; omega
    | ⟨1, _⟩ => show win0_3.index t (1 : Fin 2) * 128 + 1 * q.val = q.val; omega
  refine Eq.trans ?_ (congrArg (resultArr (V c main_arg0) (V c main_arg2) (V c main_v15)) hi).symm
  show _ = scaledProduct (V c main_arg0) (V c main_arg2) (V c main_v15) r q
  unfold scaledProduct
  refine congr (congrArg _ (Finset.sum_congr rfl fun k _ => congr (congrArg _ ?_) ?_)) ?_
  · show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 10000 + 1 * p.val = r.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show V c main_v15 (((cfg0.win 2).blk t).view.emb (ix2 p 0)) = V c main_v15 (ix2 r 0)
    refine congrArg (V c main_v15) ?_
    funext a; apply Fin.ext
    match a with
    | ⟨0, _⟩ => show win0_2.index t (0 : Fin 2) * 10000 + 1 * p.val = r.val; omega
    | ⟨1, _⟩ => show win0_2.index t (1 : Fin 2) * 1 + 1 * 0 = 0; omega

/-- An index of the array lies in point t's block iff each coordinate lies in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v16).slice (win0_3.rect t)).set ↔ _
  rw [View.set_slice_whole, Rect.mem_set_unit]
  exact Iff.rfl

/-- Row r of the array is written back by point r / 10000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [Gen.N_0]; omega⟩, rfl⟩
  obtain ⟨-, -, -, -, -, -, e30, e31⟩ := idx_facts t
  refine ⟨t, Gen.flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The result array after the region: the scaled product, everywhere. -/
theorem final (c : Dev nD) :
    (Gen.dat0 (F := Ideal) V c).arrAt 3 cfg0.N = resultArr (V c main_arg0) (V c main_arg2) (V c main_v15) :=
  (Gen.dat0 (F := Ideal) V c).arrAt_eq_of_cover 3 (resultArr (V c main_arg0) (V c main_arg2) (V c main_v15))
    (fun t _ => flushed_eq V c t) cover

/-- Entry (v, f) of the result array after the region. -/
theorem final_apply (c : Dev nD) (v : Fin 100000) (f : Fin 128) :
    (Gen.dat0 (F := Ideal) V c).arrAt 3 cfg0.N (ix2 v f)
      = scaledProduct (V c main_arg0) (V c main_arg2) (V c main_v15) v f :=
  congrFun (final V c) (ix2 v f)

end Cert.KernelIdeal.Region0

end
-- ==== Proof.Region2.lean ====
/-
  The third region, from blocks to the array.

  The region's grid has ten points; point t holds rows 10000 t … 10000 t + 9999 of the aggregated array [100000, 64]
  and of the coefficient column [100000, 1], and the whole bias row [1, 64]. Its body stores, at row p and lane q of
  the block, the aggregated entry times the row's coefficient plus the lane's bias (`pay_apply`: the shape casts are
  identities, the column is broadcast along the lanes and the row along the rows). Each block read is the array read
  at block index × block size + the coordinate inside the block, so what point t writes back is block t of ONE array,
  `resultArr` of the three arrays as the region finds them (`flushed_eq`); row r lies in the block of point r / 10000
  (`cover`), so the result array ends holding `resultArr` everywhere (`final`, `final_apply`).
-/
import proofs.«110300_j7413113553701_2_alg».proof.Proof.Gen.KernelIdeal.Frame
import proofs.«110300_j7413113553701_2_alg».proof.Proof.Spec
import proofs.«110300_j7413113553701_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A column [a, 1] broadcast along the lanes to [a, b] reads, at (p, c), the column's entry p. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (v, f) of the result: the aggregated entry scaled by the node's coefficient, plus the bias of lane f. -/
def scaledPlusBias (a : S100000x64.Idx → EReal) (d : S100000x1.Idx → EReal) (b : S1x64.Idx → EReal)
    (v : Fin 100000) (f : Fin 64) : EReal :=
  a (ix2 v f) * d (ix2 v 0) + b (ix2 0 f)

/-- The body's stored value at row p, lane q of a block: the three operations above on the loaded blocks. -/
theorem pay_apply (x0 : Vec Ideal S10000x64 .f32) (x2 : Vec Ideal S10000x1 .f32) (x1 : Vec Ideal S1x64 .f32)
    (p : Fin 10000) (q : Fin 64) :
    k2_pay1 (F := Ideal) x0 x2 x1 (ix2 p q) = x0 (ix2 p q) * x2 (ix2 p 0) + x1 (ix2 0 q) := by
  unfold k2_pay1
  rw [shapeCast_self, shapeCast_self, shapeCast_self, addf_apply, mulf_apply, broadcastTo_a1_ab_apply,
    broadcastTo_1b_ab_apply]

/-- The result as one array: entry i is `scaledPlusBias` at i's two coordinates. -/
def resultArr (a : S100000x64.Idx → EReal) (d : S100000x1.Idx → EReal) (b : S1x64.Idx → EReal) :
    S100000x64.Idx → EReal :=
  fun i => scaledPlusBias a d b (i 0) (i 1)

/-- The index maps over the ten grid points: the row-blocked windows sit at block row t, the bias row at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the result array. -/
theorem flushed_eq (c : Dev nD) (t : Fin cfg2.N) :
    (Gen.dat2 (F := Ideal) V c).flushed 3 t
      = ((cfg2.win 3).blk t).view.read (Elt Ideal) (resultArr (V c main_v38) (V c main_v15) (V c main_v39)) := by
  show (cfg2.win 3).cut (grid2.coords t) ((Gen.dat2 (F := Ideal) V c).after 3 t) = _
  rw [Gen.after2_3]
  unfold Gen.out2_3
  rw [View.canon_unit_zero hz]
  simp only [View.ld_unit_zero (S := S10000x64) hz, View.ld_unit_zero (S := S10000x1) hz, View.ld_unit_zero (S := S1x64) hz]
  funext j
  obtain ⟨p, q, rfl⟩ : ∃ (p : Fin 10000) (q : Fin 64), j = ix2 p q := ⟨j 0, j 1, eq_ix2 j⟩
  obtain ⟨e00, e01, e10, e11, e20, e21, e30, e31⟩ := idx_facts t
  have ht : t.val < 10 := lt_of_lt_of_eq t.isLt Gen.N_2
  have hp : p.val < 10000 := p.isLt
  -- the array's row under row p of block t
  obtain ⟨r, hr⟩ : ∃ r : Fin 100000, r.val = 10000 * t.val + p.val := ⟨⟨10000 * t.val + p.val, by omega⟩, rfl⟩
  show k2_pay1 (F := Ideal) (Gen.iblk2 V c 0 t) (Gen.iblk2 V c 2 t) (Gen.iblk2 V c 1 t) (ix2 p q)
    = resultArr (V c main_v38) (V c main_v15) (V c main_v39) (((cfg2.win 3).blk t).view.emb (ix2 p q))
  refine (pay_apply (Gen.iblk2 V c 0 t) (Gen.iblk2 V c 2 t) (Gen.iblk2 V c 1 t) p q).trans ?_
  have hi : ((cfg2.win 3).blk t).view.emb (ix2 p q) = ix2 r q := by
    funext a; apply Fin.ext
    match a with
    | ⟨0, _⟩ => show win2_3.index t (0 : Fin 2) * 10000 + 1 * p.val = r.val; omega
    | ⟨1, _⟩ => show win2_3.index t (1 : Fin 2) * 64 + 1 * q.val = q.val; omega
  refine Eq.trans ?_ (congrArg (resultArr (V c main_v38) (V c main_v15) (V c main_v39)) hi).symm
  show _ = scaledPlusBias (V c main_v38) (V c main_v15) (V c main_v39) r q
  unfold scaledPlusBias
  refine congr (congrArg _ (congr (congrArg _ ?_) ?_)) ?_
  · show V c main_v38 (((cfg2.win 0).blk t).view.emb (ix2 p q)) = V c main_v38 (ix2 r q)
    refine congrArg (V c main_v38) ?_
    funext a; apply Fin.ext
    match a with
    | ⟨0, _⟩ => show win2_0.index t (0 : Fin 2) * 10000 + 1 * p.val = r.val; omega
    | ⟨1, _⟩ => show win2_0.index t (1 : Fin 2) * 64 + 1 * q.val = q.val; omega
  · show V c main_v15 (((cfg2.win 2).blk t).view.emb (ix2 p 0)) = V c main_v15 (ix2 r 0)
    refine congrArg (V c main_v15) ?_
    funext a; apply Fin.ext
    match a with
    | ⟨0, _⟩ => show win2_2.index t (0 : Fin 2) * 10000 + 1 * p.val = r.val; omega
    | ⟨1, _⟩ => show win2_2.index t (1 : Fin 2) * 1 + 1 * 0 = 0; omega
  · show V c main_v39 (((cfg2.win 1).blk t).view.emb (ix2 0 q)) = V c main_v39 (ix2 0 q)
    refine congrArg (V c main_v39) ?_
    funext a; apply Fin.ext
    match a with
    | ⟨0, _⟩ => show win2_1.index t (0 : Fin 2) * 1 + 1 * 0 = 0; omega
    | ⟨1, _⟩ => show win2_1.index t (1 : Fin 2) * 64 + 1 * q.val = q.val; omega

/-- An index of the array lies in point t's block iff each coordinate lies in the block's range on its axis. -/
theorem mem_blk (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v40).slice (win2_3.rect t)).set ↔ _
  rw [View.set_slice_whole, Rect.mem_set_unit]
  exact Iff.rfl

/-- Row r of the array is written back by point r / 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show _ < grid2.N; rw [Gen.N_2]; omega⟩, rfl⟩
  obtain ⟨-, -, -, -, -, -, e30, e31⟩ := idx_facts t
  refine ⟨t, Gen.flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

/-- The result array after the region: the scaled entries plus the bias, everywhere. -/
theorem final (c : Dev nD) :
    (Gen.dat2 (F := Ideal) V c).arrAt 3 cfg2.N = resultArr (V c main_v38) (V c main_v15) (V c main_v39) :=
  (Gen.dat2 (F := Ideal) V c).arrAt_eq_of_cover 3 (resultArr (V c main_v38) (V c main_v15) (V c main_v39))
    (fun t _ => flushed_eq V c t) cover

/-- Entry (v, f) of the result array after the region. -/
theorem final_apply (c : Dev nD) (v : Fin 100000) (f : Fin 64) :
    (Gen.dat2 (F := Ideal) V c).arrAt 3 cfg2.N (ix2 v f)
      = scaledPlusBias (V c main_v38) (V c main_v15) (V c main_v39) v f :=
  congrFun (final V c) (ix2 v f)

end Cert.KernelIdeal.Region2

end
-- ==== Proof.KernelValue.lean ====
/-
  The kernel's stages, entry by entry, in the reference's vocabulary.

  The first region leaves the feature transform `x · W1` with each row scaled by its node's coefficient; the third
  leaves the second neighbourhood sum scaled by the node's coefficient, plus the second bias. The two neighbourhood
  sums are restated with the reference's gather and scatter records and its index columns — the same dimension
  numbers and, by `src_ref` and `dst_ref`, the same node numbers — so that both programs' sums range over one index set.
-/
import proofs.«110300_j7413113553701_2_alg».proof.Proof.Shared
import proofs.«110300_j7413113553701_2_alg».proof.Proof.Region0
import proofs.«110300_j7413113553701_2_alg».proof.Proof.Region2

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL.Sem Idealize.ShloMosaic.ValueIdx

variable (m : (ℓ : Loc nD τ sig) → Buf (Elt Ideal) ℓ) (ρ : Dev nD → PrngReg)

/-- The first region's output: entry (u, g) of `x · W1`, scaled by row u's coefficient. -/
theorem xs1_apply (c : Dev nD) (u : Fin 100000) (g : Fin 128) :
    W4 m ρ c (Proc.devRef .tc main_v16) (ix2 u g)
      = Cert.KernelIdeal.Region0.scaledProduct (m ((c : Thread nD τ).loc main_arg0)) (m ((c : Thread nD τ).loc main_arg2))
          (W3 m ρ c (Proc.devRef .tc main_v15)) u g := by
  have h : W4 m ρ c (Proc.devRef .tc main_v16) (ix2 u g)
      = Cert.KernelIdeal.Region0.scaledProduct (W3 m ρ c (Proc.devRef .tc main_arg0)) (W3 m ρ c (Proc.devRef .tc main_arg2))
          (W3 m ρ c (Proc.devRef .tc main_v15)) u g :=
    (congrFun (W4_arr m ρ c 3) (ix2 u g)).trans (Cert.KernelIdeal.Region0.final_apply (V3 m ρ) c u g)
  rw [arg0_W3 m ρ c, arg2_W3 m ρ c] at h
  exact h

/-- The result array: entry (v, f) of the second neighbourhood sum, scaled by row v's coefficient, plus the bias. -/
theorem out_apply (c : Dev nD) (v : Fin 100000) (f : Fin 64) :
    W8 m ρ c (Proc.devRef .tc main_v40) (ix2 v f)
      = Cert.KernelIdeal.Region2.scaledPlusBias (W7 m ρ c (Proc.devRef .tc main_v38)) (W7 m ρ c (Proc.devRef .tc main_v15))
          (W7 m ρ c (Proc.devRef .tc main_v39)) v f :=
  (congrFun (W8_arr m ρ c 3) (ix2 v f)).trans (Cert.KernelIdeal.Region2.final_apply (V7 m ρ) c v f)

/-- A coefficient read through the one-column array at any boundary from the first region's entry on is the
    reference's coefficient of that node. -/
theorem col3_ref (c : Dev nD) (v : Fin 100000) (z : Fin 1) : W3 m ρ c (Proc.devRef .tc main_v15) (ix2 v z)
    = Cert.ReferenceIdeal.Read.val_main_v14 (F := Ideal) (m ((c : Thread nD τ).loc main_arg1)) (ix1 v) :=
  (col_apply m ρ c v z).trans (congrFun (coef_ref m ρ c) (ix1 v))
theorem col5_ref (c : Dev nD) (v : Fin 100000) (z : Fin 1) : W5 m ρ c (Proc.devRef .tc main_v15) (ix2 v z)
    = Cert.ReferenceIdeal.Read.val_main_v14 (F := Ideal) (m ((c : Thread nD τ).loc main_arg1)) (ix1 v) :=
  (congrFun (col_W5 m ρ c) (ix2 v z)).trans (col3_ref m ρ c v z)
theorem col7_ref (c : Dev nD) (v : Fin 100000) (z : Fin 1) : W7 m ρ c (Proc.devRef .tc main_v15) (ix2 v z)
    = Cert.ReferenceIdeal.Read.val_main_v14 (F := Ideal) (m ((c : Thread nD τ).loc main_arg1)) (ix1 v) :=
  (congrFun (col_W7 m ρ c) (ix2 v z)).trans (col3_ref m ρ c v z)

/-- The first neighbourhood sum over the reference's records and index columns. -/
theorem agg1_ref (c : Dev nD) : W5 m ρ c (Proc.devRef .tc main_v26)
    = Ideal.hostScatterAdd Cert.ReferenceIdeal.scatter_S100000x128_S1700000x1_S1700000x128_1_0_0_1
        (Cert.ReferenceIdeal.Read.val_main_v41 (F := Ideal))
        (Cert.ReferenceIdeal.Read.val_main_v42 (F := Ideal) (m ((c : Thread nD τ).loc main_arg1)))
        (Host.gather Cert.ReferenceIdeal.gather_S100000x128_S1700000x1_S1700000x128_1_0_n_n_0_1_1128
          (W4 m ρ c (Proc.devRef .tc main_v16))
          (Cert.ReferenceIdeal.Read.val_main_v36 (F := Ideal) (m ((c : Thread nD τ).loc main_arg1)))) := by
  rw [agg1_eq m ρ c, src_ref m ρ c, dst_ref m ρ c]
  rfl

/-- The second neighbourhood sum likewise. -/
theorem agg2_ref (c : Dev nD) : W7 m ρ c (Proc.devRef .tc main_v38)
    = Ideal.hostScatterAdd Cert.ReferenceIdeal.scatter_S100000x64_S1700000x1_S1700000x64_1_0_0_1
        (Cert.ReferenceIdeal.Read.val_main_v64 (F := Ideal))
        (Cert.ReferenceIdeal.Read.val_main_v42 (F := Ideal) (m ((c : Thread nD τ).loc main_arg1)))
        (Host.gather Cert.ReferenceIdeal.gather_S100000x64_S1700000x1_S1700000x64_1_0_n_n_0_1_164
          (W6 m ρ c (Proc.devRef .tc main_v28))
          (Cert.ReferenceIdeal.Read.val_main_v36 (F := Ideal) (m ((c : Thread nD τ).loc main_arg1)))) := by
  rw [agg2_eq m ρ c, src_ref m ρ c, dst_ref m ρ c]
  rfl

end Cert.KernelIdeal.Fold

end
-- ==== Proof.Region1.lean ====
/-
  The second region, from blocks to the array.

  The region's grid has ten points; point t holds rows 10000 t … 10000 t + 9999 of the aggregated array [100000, 128]
  and of the coefficient column [100000, 1], the whole bias row [1, 128] and the whole second weight matrix [128, 64].
  Its body forms the block of activations (aggregated entry times the row's coefficient, plus the lane's bias, clipped
  below at the zero word: `actBlock_apply`), the column of their row norms (the square root of the lane sum of squares,
  clamped below at the word 1e-12: `normCol_apply`), divides each row by its norm, multiplies by the weight matrix into
  a zero accumulator and scales by the coefficient column (`pay_eq`, `pay_apply`). The two float words stay words:
  neither is evaluated. Each block read is the array read at block index × block size + the coordinate inside the
  block, so what point t writes back is block t of ONE array, `resultArr` of the four arrays as the region finds them
  (`flushed_eq`); row r lies in the block of point r / 10000 (`cover`), so the result array ends holding `resultArr`
  everywhere (`final`, `final_apply`).
-/
import proofs.«110300_j7413113553701_2_alg».proof.Proof.Gen.KernelIdeal.Frame
import proofs.«110300_j7413113553701_2_alg».proof.Proof.Spec
import proofs.«110300_j7413113553701_2_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A column [a, 1] broadcast along the lanes to [a, b] reads, at (p, c), the column's entry p. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector's entry i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product's dimension numbers contract the left operand's lanes with the right operand's rows. -/
theorem plainDot : Cert.LibDot.Plain dot_S10000x128_S128x64_S10000x64_1_0_0_1_n_n where
  hrank := rfl
  hs := rfl
  hl0 := fun _ _ => rfl
  hl1 := fun j k => DotDims.lhsIdx_val_of_single dot_S10000x128_S128x64_S10000x64_1_0_0_1_n_n rfl j k
  hr0 := fun j k => DotDims.rhsIdx_val_of_single dot_S10000x128_S128x64_S10000x64_1_0_0_1_n_n rfl j k
  hr1 := fun _ _ => rfl

/-- The sum over the 128 lanes of a block, read at row p. -/
theorem laneSum_apply (x : FVec Ideal S10000x128 .f32) (h : S10000x128.Reduces [1] S10000) (hφ : FKind.Formats .f32)
    (hacc : (0x00000000#32 : BitVec 32) = FKind.add.neutral .f32 hφ) (p : Fin 10000) :
    multiReduction (F := Ideal) .add [1] S10000 x 0x00000000#32 h hφ hacc (ix1 p) = ∑ k : Fin 128, x (ix2 p k) := by
  refine (Ideal.multiReduction_add_single x _ h hφ hacc (ix1 p)).trans ?_
  refine Finset.sum_congr rfl fun k _ => congrArg x ?_
  funext a
  match a with
  | ⟨0, _⟩ => rfl
  | ⟨1, _⟩ => rfl

/-- The block of activations: aggregated entry times the row's coefficient, plus the lane's bias, clipped below at the
    zero word. -/
def actBlock (x0 : Vec Ideal S10000x128 .f32) (x2 : Vec Ideal S10000x1 .f32) (x1 : Vec Ideal S1x128 .f32) :
    FVec Ideal S10000x128 .f32 :=
  maximumf
    (addf
      (mulf (shapeCast S10000x128 x0 shapeCasts_S10000x128_S10000x128)
        (broadcastTo S10000x128 (shapeCast S10000x1 x2 shapeCasts_S10000x1_S10000x1) broadcasts_S10000x1_S10000x128))
      (broadcastTo S10000x128 (shapeCast S1x128 x1 shapeCasts_S1x128_S1x128) broadcasts_S1x128_S10000x128))
    (broadcast S10000x128 (Scalar.ofBits .f32 0x00000000#32))

theorem actBlock_apply (x0 : Vec Ideal S10000x128 .f32) (x2 : Vec Ideal S10000x1 .f32) (x1 : Vec Ideal S1x128 .f32)
    (p : Fin 10000) (k : Fin 128) :
    actBlock x0 x2 x1 (ix2 p k) = Cert.Gcn.relu0 (x0 (ix2 p k) * x2 (ix2 p 0)) (x1 (ix2 0 k)) := by
  unfold actBlock Cert.Gcn.relu0
  rw [maximumf_apply, addf_apply, mulf_apply, shapeCast_self, shapeCast_self, shapeCast_self,
    broadcastTo_a1_ab_apply, broadcastTo_1b_ab_apply, broadcast_apply]
  rfl

/-- The column of clamped row norms of a block of activations. -/
def normCol (h : FVec Ideal S10000x128 .f32) : FVec Ideal S10000x1 .f32 :=
  maximumf
    (sqrt (shapeCast S10000x1
      (multiReduction (F := Ideal) .add [1] S10000 (mulf h h) 0x00000000#32 reduces_S10000x128_S10000 (.inl rfl) rfl)
      shapeCasts_S10000_S10000x1))
    (broadcast S10000x1 (Scalar.ofBits .f32 0x2B8CBCCC#32))

theorem normCol_apply (h : FVec Ideal S10000x128 .f32) (p : Fin 10000) (u : Fin 1) :
    normCol h (ix2 p u)
      = max (Ideal.sqrt (∑ f : Fin 128, h (ix2 p f) * h (ix2 p f))) (Ideal.ofBits .f32 0x2B8CBCCC#32) := by
  unfold normCol
  rw [maximumf_apply, broadcast_apply]
  show max (Ideal.sqrt (shapeCast S10000x1 _ shapeCasts_S10000_S10000x1 (ix2 p u))) _ = _
  rw [shapeCast_a_a1_apply]
  refine congrArg (fun s => max (Ideal.sqrt s) (Ideal.ofBits .f32 0x2B8CBCCC#32)) ?_
  exact (laneSum_apply (mulf h h) _ _ _ p).trans (Finset.sum_congr rfl fun k _ => rfl)

/-- The body's stored value is the unit rows times the second weight matrix, scaled by the coefficient column. -/
theorem pay_eq (x0 : Vec Ideal S10000x128 .f32) (x2 : Vec Ideal S10000x1 .f32) (x1 : Vec Ideal S1x128 .f32)
    (x3 : Vec Ideal S128x64 .f32) :
    k1_pay1 (F := Ideal) x0 x2 x1 x3 x2
      = mulf
          (matmul (F := Ideal) (φ₁ := .f32) (φ₂ := .f32) dot_S10000x128_S128x64_S10000x64_1_0_0_1_n_n none
            (divf (actBlock x0 x2 x1)
              (broadcastTo S10000x128 (normCol (actBlock x0 x2 x1)) broadcasts_S10000x1_S10000x128))
            x3 (constant (F := Ideal) S10000x64 .f32 0x00000000#32))
          (broadcastTo S10000x64 (shapeCast S10000x1 x2 shapeCasts_S10000x1_S10000x1) broadcasts_S10000x1_S10000x64) := by
  unfold k1_pay1 normCol actBlock
  rfl

/-- The body's stored value at row p, lane q of a block. -/
theorem pay_apply (x0 : Vec Ideal S10000x128 .f32) (x2 : Vec Ideal S10000x1 .f32) (x1 : Vec Ideal S1x128 .f32)
    (x3 : Vec Ideal S128x64 .f32) (p : Fin 10000) (q : Fin 64) :
    k1_pay1 (F := Ideal) x0 x2 x1 x3 x2 (ix2 p q)
      = (∑ k : Fin 128, Cert.Gcn.rowUnit
            (fun k' => Cert.Gcn.relu0 (x0 (ix2 p k') * x2 (ix2 p 0)) (x1 (ix2 0 k'))) k * x3 (ix2 k q))
          * x2 (ix2 p 0) := by
  rw [pay_eq, mulf_apply, shapeCast_self, broadcastTo_a1_ab_apply]
  refine congrArg (· * x2 (ix2 p 0)) ?_
  refine (Cert.LibDot.matmul_ix2 plainDot none _ x3 p q).trans ?_
  refine Finset.sum_congr rfl fun k _ => congrArg (· * x3 (ix2 k q)) ?_
  rw [divf_apply, broadcastTo_a1_ab_apply, normCol_apply]
  unfold Cert.Gcn.rowUnit
  simp only [actBlock_apply]

/-- Entry (v, f) of the result: row v of activations, divided by its clamped Euclidean norm, times column f of the
    second weight matrix, scaled by the node's coefficient. -/
def scaledUnitProduct (a : S100000x128.Idx → EReal) (d : S100000x1.Idx → EReal) (b : S1x128.Idx → EReal)
    (w : S128x64.Idx → EReal) (v : Fin 100000) (f : Fin 64) : EReal :=
  (∑ k : Fin 128, Cert.Gcn.rowUnit
      (fun k' => Cert.Gcn.relu0 (a (ix2 v k') * d (ix2 v 0)) (b (ix2 0 k'))) k * w (ix2 k f))
    * d (ix2 v 0)

/-- The result as one array: entry i is `scaledUnitProduct` at i's two coordinates. -/
def resultArr (a : S100000x128.Idx → EReal) (d : S100000x1.Idx → EReal) (b : S1x128.Idx → EReal)
    (w : S128x64.Idx → EReal) : S100000x64.Idx → EReal :=
  fun i => scaledUnitProduct a d b w (i 0) (i 1)

/-- The index maps over the ten grid points: the row-blocked windows sit at block row t, the bias row and the weights at
    block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the result array. -/
theorem flushed_eq (c : Dev nD) (t : Fin cfg1.N) :
    (Gen.dat1 (F := Ideal) V c).flushed 4 t
      = ((cfg1.win 4).blk t).view.read (Elt Ideal)
          (resultArr (V c main_v26) (V c main_v15) (V c main_v27) (V c main_arg4)) := by
  show (cfg1.win 4).cut (grid1.coords t) ((Gen.dat1 (F := Ideal) V c).after 4 t) = _
  rw [Gen.after1_4]
  unfold Gen.out1_4
  rw [View.canon_unit_zero hz]
  simp only [View.ld_unit_zero (S := S10000x128) hz, View.ld_unit_zero (S := S10000x1) hz,
    View.ld_unit_zero (S := S1x128) hz, View.ld_unit_zero (S := S128x64) hz]
  funext j
  obtain ⟨p, q, rfl⟩ : ∃ (p : Fin 10000) (q : Fin 64), j = ix2 p q := ⟨j 0, j 1, eq_ix2 j⟩
  obtain ⟨e00, e01, e10, e11, e20, e21, e30, e31, e40, e41⟩ := idx_facts t
  have ht : t.val < 10 := lt_of_lt_of_eq t.isLt Gen.N_1
  have hp : p.val < 10000 := p.isLt
  -- the array's row under row p of block t
  obtain ⟨r, hr⟩ : ∃ r : Fin 100000, r.val = 10000 * t.val + p.val := ⟨⟨10000 * t.val + p.val, by omega⟩, rfl⟩
  show k1_pay1 (F := Ideal) (Gen.iblk1 V c 0 t) (Gen.iblk1 V c 2 t) (Gen.iblk1 V c 1 t) (Gen.iblk1 V c 3 t)
      (Gen.iblk1 V c 2 t) (ix2 p q)
    = resultArr (V c main_v26) (V c main_v15) (V c main_v27) (V c main_arg4) (((cfg1.win 4).blk t).view.emb (ix2 p q))
  refine (pay_apply (Gen.iblk1 V c 0 t) (Gen.iblk1 V c 2 t) (Gen.iblk1 V c 1 t) (Gen.iblk1 V c 3 t) p q).trans ?_
  have hi : ((cfg1.win 4).blk t).view.emb (ix2 p q) = ix2 r q := by
    funext a; apply Fin.ext
    match a with
    | ⟨0, _⟩ => show win1_4.index t (0 : Fin 2) * 10000 + 1 * p.val = r.val; omega
    | ⟨1, _⟩ => show win1_4.index t (1 : Fin 2) * 64 + 1 * q.val = q.val; omega
  refine Eq.trans ?_ (congrArg (resultArr (V c main_v26) (V c main_v15) (V c main_v27) (V c main_arg4)) hi).symm
  show _ = scaledUnitProduct (V c main_v26) (V c main_v15) (V c main_v27) (V c main_arg4) r q
  unfold scaledUnitProduct
  have h0 : ∀ k : Fin 128, Gen.iblk1 V c 0 t (ix2 p k) = V c main_v26 (ix2 r k) := fun k => by
    show V c main_v26 (((cfg1.win 0).blk t).view.emb (ix2 p k)) = V c main_v26 (ix2 r k)
    refine congrArg (V c main_v26) ?_
    funext a; apply Fin.ext
    match a with
    | ⟨0, _⟩ => show win1_0.index t (0 : Fin 2) * 10000 + 1 * p.val = r.val; omega
    | ⟨1, _⟩ => show win1_0.index t (1 : Fin 2) * 128 + 1 * k.val = k.val; omega
  have h1 : ∀ k : Fin 128, Gen.iblk1 V c 1 t (ix2 0 k) = V c main_v27 (ix2 0 k) := fun k => by
    show V c main_v27 (((cfg1.win 1).blk t).view.emb (ix2 0 k)) = V c main_v27 (ix2 0 k)
    refine congrArg (V c main_v27) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : Gen.iblk1 V c 2 t (ix2 p 0) = V c main_v15 (ix2 r 0) := by
    show V c main_v15 (((cfg1.win 2).blk t).view.emb (ix2 p 0)) = V c main_v15 (ix2 r 0)
    refine congrArg (V c main_v15) ?_
    funext a; apply Fin.ext
    match a with
    | ⟨0, _⟩ => show win1_2.index t (0 : Fin 2) * 10000 + 1 * p.val = r.val; omega
    | ⟨1, _⟩ => show win1_2.index t (1 : Fin 2) * 1 + 1 * 0 = 0; omega
  have h3 : ∀ k : Fin 128, Gen.iblk1 V c 3 t (ix2 k q) = V c main_arg4 (ix2 k q) := fun k => by
    show V c main_arg4 (((cfg1.win 3).blk t).view.emb (ix2 k q)) = V c main_arg4 (ix2 k q)
    refine congrArg (V c main_arg4) ?_
    funext a; apply Fin.ext
    match a with
    | ⟨0, _⟩ => show win1_3.index t (0 : Fin 2) * 128 + 1 * k.val = k.val; omega
    | ⟨1, _⟩ => show win1_3.index t (1 : Fin 2) * 64 + 1 * q.val = q.val; omega
  simp only [h0, h1, h2, h3]

/-- An index of the array lies in point t's block iff each coordinate lies in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v28).slice (win1_4.rect t)).set ↔ _
  rw [View.set_slice_whole, Rect.mem_set_unit]
  exact Iff.rfl

/-- Row r of the array is written back by point r / 10000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show _ < grid1.N; rw [Gen.N_1]; omega⟩, rfl⟩
  obtain ⟨-, -, -, -, -, -, -, -, e40, e41⟩ := idx_facts t
  refine ⟨t, Gen.flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- The result array after the region: the scaled product of the unit rows with the second weight matrix, everywhere. -/
theorem final (c : Dev nD) :
    (Gen.dat1 (F := Ideal) V c).arrAt 4 cfg1.N
      = resultArr (V c main_v26) (V c main_v15) (V c main_v27) (V c main_arg4) :=
  (Gen.dat1 (F := Ideal) V c).arrAt_eq_of_cover 4
    (resultArr (V c main_v26) (V c main_v15) (V c main_v27) (V c main_arg4))
    (fun t _ => flushed_eq V c t) cover

/-- Entry (v, f) of the result array after the region. -/
theorem final_apply (c : Dev nD) (v : Fin 100000) (f : Fin 64) :
    (Gen.dat1 (F := Ideal) V c).arrAt 4 cfg1.N (ix2 v f)
      = scaledUnitProduct (V c main_v26) (V c main_v15) (V c main_v27) (V c main_arg4) v f :=
  congrFun (final V c) (ix2 v f)

end Cert.KernelIdeal.Region1

end
-- ==== Proof.KernelArrays.lean ====
/-
  The kernel's arrays as functions on indices, and each stage's entry over the stage before it.

  `xs1K`: the first region's output, `x · W1` with each row scaled by its node's coefficient. `agg1K`: the sum of its
  rows gathered by source and added by destination. `xs2K`: the second region's output — the row of `agg1K` scaled by
  the coefficient, biased, clipped, divided by its clamped norm, multiplied by `W2`, scaled by the coefficient again.
  `agg2K`: the same neighbourhood sum of its rows. `outK`: the row of `agg2K` scaled by the coefficient, plus the bias.
  The coefficient is the reference's stage of the edge array (`coefK`).
-/
import proofs.«110300_j7413113553701_2_alg».proof.Proof.KernelValue
import proofs.«110300_j7413113553701_2_alg».proof.Proof.Region1

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx

/-- A scaled product whose coefficient column is known entry by entry. -/
theorem scaledProduct_col (x : S100000x128.Idx → EReal) (w : S128x128.Idx → EReal) (d : S100000x1.Idx → EReal)
    (dv : S100000.Idx → EReal) (u : Fin 100000) (g : Fin 128) (hd : d (ix2 u 0) = dv (ix1 u)) :
    Cert.KernelIdeal.Region0.scaledProduct x w d u g = (∑ k : Fin 128, x (ix2 u k) * w (ix2 k g)) * dv (ix1 u) := by
  unfold Cert.KernelIdeal.Region0.scaledProduct
  rw [hd]

/-- The middle region's entry with its coefficient column and bias row known entry by entry. -/
theorem scaledUnitProduct_col (agg : S100000x128.Idx → EReal) (d : S100000x1.Idx → EReal) (b : S1x128.Idx → EReal)
    (w : S128x64.Idx → EReal) (dv : S100000.Idx → EReal) (b1 : S128.Idx → EReal) (u : Fin 100000) (g : Fin 64)
    (hd : d (ix2 u 0) = dv (ix1 u)) (hb : ∀ k' : Fin 128, b (ix2 0 k') = b1 (ix1 k')) :
    Cert.KernelIdeal.Region1.scaledUnitProduct agg d b w u g
      = (∑ k : Fin 128, Cert.Gcn.rowUnit (fun k' => Cert.Gcn.relu0 (agg (ix2 u k') * dv (ix1 u)) (b1 (ix1 k'))) k
          * w (ix2 k g)) * dv (ix1 u) := by
  unfold Cert.KernelIdeal.Region1.scaledUnitProduct
  simp only [hd, hb]

/-- A scaled entry plus a bias with the coefficient column and bias row known entry by entry. -/
theorem scaledPlusBias_col (agg : S100000x64.Idx → EReal) (d : S100000x1.Idx → EReal) (b : S1x64.Idx → EReal)
    (dv : S100000.Idx → EReal) (b5 : S64.Idx → EReal) (v : Fin 100000) (f : Fin 64)
    (hd : d (ix2 v 0) = dv (ix1 v)) (hb : b (ix2 0 f) = b5 (ix1 f)) :
    Cert.KernelIdeal.Region2.scaledPlusBias agg d b v f = agg (ix2 v f) * dv (ix1 v) + b5 (ix1 f) := by
  unfold Cert.KernelIdeal.Region2.scaledPlusBias
  rw [hd, hb]

variable (m : (ℓ : Loc nD τ sig) → Buf (Elt Ideal) ℓ) (ρ : Dev nD → PrngReg)

/-- The arguments and the stage arrays, as functions on indices. -/
abbrev argX (c : Dev nD) : S100000x128.Idx → EReal := m ((c : Thread nD τ).loc main_arg0)
abbrev argW1 (c : Dev nD) : S128x128.Idx → EReal := m ((c : Thread nD τ).loc main_arg2)
abbrev argB1 (c : Dev nD) : S128.Idx → EReal := m ((c : Thread nD τ).loc main_arg3)
abbrev argW2 (c : Dev nD) : S128x64.Idx → EReal := m ((c : Thread nD τ).loc main_arg4)
abbrev argB2 (c : Dev nD) : S64.Idx → EReal := m ((c : Thread nD τ).loc main_arg5)
abbrev coefK (c : Dev nD) : S100000.Idx → EReal :=
  Cert.ReferenceIdeal.Read.val_main_v14 (F := Ideal) (m ((c : Thread nD τ).loc main_arg1))
def xs1K (c : Dev nD) : S100000x128.Idx → EReal := W4 m ρ c (Proc.devRef .tc main_v16)
def agg1K (c : Dev nD) : S100000x128.Idx → EReal := W5 m ρ c (Proc.devRef .tc main_v26)
def xs2K (c : Dev nD) : S100000x64.Idx → EReal := W6 m ρ c (Proc.devRef .tc main_v28)
def agg2K (c : Dev nD) : S100000x64.Idx → EReal := W7 m ρ c (Proc.devRef .tc main_v38)
def outK (c : Dev nD) : S100000x64.Idx → EReal := W8 m ρ c (Proc.devRef .tc main_v40)

theorem xs1K_apply (c : Dev nD) (u : Fin 100000) (g : Fin 128) :
    xs1K m ρ c (ix2 u g) = (∑ k : Fin 128, argX m c (ix2 u k) * argW1 m c (ix2 k g)) * coefK m c (ix1 u) :=
  (xs1_apply m ρ c u g).trans
    (scaledProduct_col (argX m c) (argW1 m c) (W3 m ρ c (Proc.devRef .tc main_v15)) (coefK m c) u g (col3_ref m ρ c u 0))

theorem xs2K_apply (c : Dev nD) (u : Fin 100000) (g : Fin 64) :
    xs2K m ρ c (ix2 u g)
      = (∑ k : Fin 128, Cert.Gcn.rowUnit (fun k' => Cert.Gcn.relu0 (agg1K m ρ c (ix2 u k') * coefK m c (ix1 u))
            (argB1 m c (ix1 k'))) k * argW2 m c (ix2 k g)) * coefK m c (ix1 u) := by
  have h : W6 m ρ c (Proc.devRef .tc main_v28) (ix2 u g)
      = Cert.KernelIdeal.Region1.scaledUnitProduct (W5 m ρ c (Proc.devRef .tc main_v26)) (W5 m ρ c (Proc.devRef .tc main_v15))
          (W5 m ρ c (Proc.devRef .tc main_v27)) (W5 m ρ c (Proc.devRef .tc main_arg4)) u g :=
    (congrFun (W6_arr m ρ c 4) (ix2 u g)).trans (Cert.KernelIdeal.Region1.final_apply (V5 m ρ) c u g)
  rw [arg4_W5 m ρ c] at h
  exact h.trans (scaledUnitProduct_col (agg1K m ρ c) (W5 m ρ c (Proc.devRef .tc main_v15))
    (W5 m ρ c (Proc.devRef .tc main_v27)) (argW2 m c) (coefK m c) (argB1 m c) u g (col5_ref m ρ c u 0)
    (fun k' => bias1_apply m ρ c 0 k'))

theorem outK_apply (c : Dev nD) (v : Fin 100000) (f : Fin 64) :
    outK m ρ c (ix2 v f) = agg2K m ρ c (ix2 v f) * coefK m c (ix1 v) + argB2 m c (ix1 f) :=
  (out_apply m ρ c v f).trans
    (scaledPlusBias_col (agg2K m ρ c) (W7 m ρ c (Proc.devRef .tc main_v15)) (W7 m ρ c (Proc.devRef .tc main_v39))
      (coefK m c) (argB2 m c) v f (col7_ref m ρ c v 0) (bias2_apply m ρ c 0 f))

theorem agg1K_eq (c : Dev nD) : agg1K m ρ c
    = Ideal.hostScatterAdd Cert.ReferenceIdeal.scatter_S100000x128_S1700000x1_S1700000x128_1_0_0_1
        (Cert.ReferenceIdeal.Read.val_main_v41 (F := Ideal))
        (Cert.ReferenceIdeal.Read.val_main_v42 (F := Ideal) (m ((c : Thread nD τ).loc main_arg1)))
        (Host.gather Cert.ReferenceIdeal.gather_S100000x128_S1700000x1_S1700000x128_1_0_n_n_0_1_1128 (xs1K m ρ c)
          (Cert.ReferenceIdeal.Read.val_main_v36 (F := Ideal) (m ((c : Thread nD τ).loc main_arg1)))) :=
  agg1_ref m ρ c

theorem agg2K_eq (c : Dev nD) : agg2K m ρ c
    = Ideal.hostScatterAdd Cert.ReferenceIdeal.scatter_S100000x64_S1700000x1_S1700000x64_1_0_0_1
        (Cert.ReferenceIdeal.Read.val_main_v64 (F := Ideal))
        (Cert.ReferenceIdeal.Read.val_main_v42 (F := Ideal) (m ((c : Thread nD τ).loc main_arg1)))
        (Host.gather Cert.ReferenceIdeal.gather_S100000x64_S1700000x1_S1700000x64_1_0_n_n_0_1_164 (xs2K m ρ c)
          (Cert.ReferenceIdeal.Read.val_main_v36 (F := Ideal) (m ((c : Thread nD τ).loc main_arg1)))) :=
  agg2_ref m ρ c

end Cert.KernelIdeal.Fold

end
-- ==== Proof.LibGather.lean ====
/-
  A gather with one start index per result row, read at an entry. The start indices are an [E, 1] array of
  integers; the start index of result row e is the entry (e, 0), read as a signed integer and clamped into
  [0, N − 1], where N is the operand's extent on axis 0 (the slice on that axis has size 1, so the clamp's upper
  end is N − 1). Two shapes of the dimension numbers: the FLAT one reads one element of an operand [N] into a
  result [E]; the ROW one reads one whole row of an operand [N, C] into a result [E, C], the result's column being
  the operand's column. The record's field equations are a hypothesis (a structure of seven equations), so the
  lemmas apply to every record whose fields are these literals, each equation by reflexivity.
-/
import Mathlib
import Idealize.ShloMosaic.Lib.ValueIdx

namespace Cert.LibGather

open Idealize.ShloMosaic Idealize.ShloMosaic.ValueIdx

/-! ## The flat gather -/

/-- The field equations of a gather that reads one element of a flat array per start index. -/
structure Flat {N E : Nat} (d : GatherDims ⟨1, ![N]⟩ ⟨2, ![E, 1]⟩ ⟨1, ![E]⟩) : Prop where
  hoff : d.offsetDims = []
  hcol : d.collapsedSliceDims = [0]
  hob : d.operandBatchingDims = []
  hsb : d.startIndicesBatchingDims = []
  hsm : d.startIndexMap = [0]
  hiv : d.indexVectorDim = 1
  hss : d.sliceSizes = ![1]

/-- THE FLAT GATHER READ AT `e`: the operand at the start index `idx[e, 0]`, read signed and clamped into
    `[0, N − 1]`. -/
theorem flat_apply {N E w : Nat} {α : Type} (hN : 0 < N) {d : GatherDims ⟨1, ![N]⟩ ⟨2, ![E, 1]⟩ ⟨1, ![E]⟩}
    (hd : Flat d) (x : (⟨1, ![N]⟩ : Shape).Idx → α) (idx : IVec ⟨2, ![E, 1]⟩ w) (e : Fin E) :
    Host.gather d x idx (ix1 e)
      = x (ix1 (⟨min (idx (ix2 e 0)).toInt.toNat (N - 1), by omega⟩ : Fin N)) := by
  obtain ⟨od, cd, ob, sb, sm, iv, ss, wf⟩ := d
  obtain ⟨h1, h2, h3, h4, h5, h6, h7⟩ := hd
  dsimp only at h1 h2 h3 h4 h5 h6 h7
  subst h1 h2 h3 h4 h5 h6 h7
  unfold Host.gather
  congr 1
  funext a
  obtain rfl : a = 0 := Subsingleton.elim _ _
  refine Fin.ext ?_
  show GatherDims.start _ _ _ _ + GatherDims.batchCoord _ _ _ + GatherDims.offCoord _ _ _ = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (s := ⟨1, ![N]⟩) (si := ⟨2, ![E, 1]⟩) (t := ⟨1, ![E]⟩)
      { offsetDims := [], collapsedSliceDims := [0], operandBatchingDims := [], startIndicesBatchingDims := [],
        startIndexMap := [0], indexVectorDim := 1, sliceSizes := ![1], wf := wf } (ix1 e)
      ⟨List.idxOf (0 : Fin 1) [0], List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The row gather -/

/-- The field equations of a gather that reads one whole row of a table per start index. -/
structure Row {N C E : Nat} (d : GatherDims ⟨2, ![N, C]⟩ ⟨2, ![E, 1]⟩ ⟨2, ![E, C]⟩) : Prop where
  hoff : d.offsetDims = [1]
  hcol : d.collapsedSliceDims = [0]
  hob : d.operandBatchingDims = []
  hsb : d.startIndicesBatchingDims = []
  hsm : d.startIndexMap = [0]
  hiv : d.indexVectorDim = 1
  hss : d.sliceSizes = ![1, C]

/-- The row gather's record with its fields as literals. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Axis 0 of the operand index: the start index, read signed and clamped into the table's rows. -/
theorem rowDims_idx0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    ((rowDims N C E wf).operandIdx (ix2 e f) idx 0).val = min (idx (ix2 e 0)).toInt.toNat (N - 1) := by
  show (rowDims N C E wf).start (ix2 e f) idx 0 + (rowDims N C E wf).batchCoord (ix2 e f) 0
    + (rowDims N C E wf).offCoord (ix2 e f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e f) ⟨List.idxOf (0 : Fin 2) (rowDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Axis 1 of the operand index: the result's column. -/
theorem rowDims_idx1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    ((rowDims N C E wf).operandIdx (ix2 e f) idx 1).val = f.val := by
  show (rowDims N C E wf).start (ix2 e f) idx 1 + (rowDims N C E wf).batchCoord (ix2 e f) 1
    + (rowDims N C E wf).offCoord (ix2 e f) 1 = _
  rw [GatherDims.batchCoord_eq_zero _ _ _ List.not_mem_nil]
  unfold GatherDims.start
  rw [dif_neg (show (1 : Fin 2) ∉ (rowDims N C E wf).startIndexMap by
    show (1 : Fin 2) ∉ [(0 : Fin 2)]; decide)]
  simp only [Nat.add_zero, Nat.zero_add]
  unfold GatherDims.offCoord
  rw [dif_pos ((GatherDims.mem_sKept _ _).mpr ⟨by show (1 : Fin 2) ∉ [(0 : Fin 2)]; decide, List.not_mem_nil⟩)]
  rfl

/-- THE ROW GATHER READ AT `(e, f)`: the operand at row `idx[e, 0]`, read signed and clamped into `[0, N − 1]`,
    and column `f`. -/
theorem row_apply {N C E w : Nat} {α : Type} (hN : 0 < N) {d : GatherDims ⟨2, ![N, C]⟩ ⟨2, ![E, 1]⟩ ⟨2, ![E, C]⟩}
    (hd : Row d) (x : (⟨2, ![N, C]⟩ : Shape).Idx → α) (idx : IVec ⟨2, ![E, 1]⟩ w) (e : Fin E) (f : Fin C) :
    Host.gather d x idx (ix2 e f)
      = x (ix2 (⟨min (idx (ix2 e 0)).toInt.toNat (N - 1), by omega⟩ : Fin N) f) := by
  obtain ⟨od, cd, ob, sb, sm, iv, ss, wf⟩ := d
  obtain ⟨h1, h2, h3, h4, h5, h6, h7⟩ := hd
  dsimp only at h1 h2 h3 h4 h5 h6 h7
  subst h1 h2 h3 h4 h5 h6 h7
  unfold Host.gather
  congr 1
  funext a
  refine Fin.ext ?_
  match a with
  | ⟨0, _⟩ => exact rowDims_idx0 wf idx e f
  | ⟨1, _⟩ => exact rowDims_idx1 wf idx e f

end Cert.LibGather
-- ==== Proof.LibScatter.lean ====
/-
  A scatter with one scatter index per update row, where an update lands. The scatter indices are an [E, 1] array
  of integers; update row e goes to the operand row named by the entry (e, 0), read as a signed integer and NOT
  clamped: an update whose row falls outside the operand is dropped. Operand [N, C], updates [E, C]: axis 0 of the
  operand is the inserted (indexed) one, axis 1 is the window, so update entry (e, f) lands at operand entry
  (idx[e, 0], f) when 0 ≤ idx[e, 0] < N and nowhere otherwise. Only this direction is stated: if the update
  entry (e, f) lands at (v, g) then idx[e, 0] = v and f = g. The record's field equations are a hypothesis (a
  structure of four equations), so the lemma applies to every record whose fields are these literals.
-/
import Mathlib
import Idealize.ShloMosaic.Lib.ValueIdx

namespace Cert.LibScatter

open Idealize.ShloMosaic Idealize.ShloMosaic.ValueIdx

/-- The field equations of a scatter that writes one whole row of a table per scatter index. -/
structure Row {N C E : Nat} (d : ScatterDims ⟨2, ![N, C]⟩ ⟨2, ![E, 1]⟩ ⟨2, ![E, C]⟩) : Prop where
  huw : d.updateWindowDims = [1]
  hiw : d.insertedWindowDims = [0]
  hsd : d.scatterDimsToOperandDims = [0]
  hiv : d.indexVectorDim = 1

/-- The row scatter's record with its fields as literals. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N C E w : Nat} (wf : ScatterDims.WF ⟨2, ![N, C]⟩ ⟨2, ![E, 1]⟩ ⟨2, ![E, C]⟩ [1] [0] [0] 1)
  (idx : IVec ⟨2, ![E, 1]⟩ w) (e : Fin E) (f : Fin C)

/-- The window's start on axis 0: the scatter index of the update's row, read signed. -/
theorem rowDims_start0 : (rowDims N C E wf).start (ix2 e f) idx 0 = (idx (ix2 e 0)).toInt := by
  unfold ScatterDims.start
  rw [dif_pos (show (0 : Fin 2) ∈ (rowDims N C E wf).scatterDimsToOperandDims from List.mem_singleton.mpr rfl)]
  have hsi : (rowDims N C E wf).siIdx (ix2 e f) ⟨List.idxOf (0 : Fin 2) (rowDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window's start on axis 1 is 0: the scatter index names axis 0 only. -/
theorem rowDims_start1 : (rowDims N C E wf).start (ix2 e f) idx 1 = 0 := by
  unfold ScatterDims.start
  rw [dif_neg (show (1 : Fin 2) ∉ (rowDims N C E wf).scatterDimsToOperandDims by
    show (1 : Fin 2) ∉ [(0 : Fin 2)]; decide)]

/-- The window coordinate on axis 0 is 0: that axis is inserted. -/
theorem rowDims_window0 : (rowDims N C E wf).window (ix2 e f) 0 = 0 := by
  unfold ScatterDims.window
  rw [dif_neg (show (0 : Fin 2) ∉ (rowDims N C E wf).sKept by
    show (0 : Fin 2) ∉ [(1 : Fin 2)]; decide)]

/-- The window coordinate on axis 1 is the update's column. -/
theorem rowDims_window1 : (rowDims N C E wf).window (ix2 e f) 1 = f.val := by
  unfold ScatterDims.window
  rw [dif_pos (show (1 : Fin 2) ∈ (rowDims N C E wf).sKept by
    show (1 : Fin 2) ∈ [(1 : Fin 2)]; decide)]
  rfl

theorem rowDims_some (v : Fin N) (g : Fin C)
    (h : (rowDims N C E wf).resultIdx? (ix2 e f) idx = some (ix2 v g)) :
    (idx (ix2 e 0)).toInt = (v.val : Int) ∧ f = g := by
  unfold ScatterDims.resultIdx? at h
  split at h
  · rename_i hr
    have hi := Option.some.inj h
    have h0 : ((rowDims N C E wf).start (ix2 e f) idx 0 + ((rowDims N C E wf).window (ix2 e f) 0 : Nat)).toNat = v.val :=
      congrArg Fin.val (congrFun hi 0)
    have h1 : ((rowDims N C E wf).start (ix2 e f) idx 1 + ((rowDims N C E wf).window (ix2 e f) 1 : Nat)).toNat = g.val :=
      congrArg Fin.val (congrFun hi 1)
    have r0 := (hr 0).1
    have r1 := (hr 1).1
    rw [rowDims_start0, rowDims_window0] at h0 r0
    rw [rowDims_start1, rowDims_window1] at h1 r1
    refine ⟨by omega, Fin.ext (by omega)⟩
  · exact absurd h (by simp)

end

/-- WHERE AN UPDATE LANDS: if update entry `(e, f)` lands at operand entry `(v, g)`, then the scatter index
    `idx[e, 0]`, read signed, is `v`, and the column is kept. -/
theorem row_some {N C E w : Nat} {d : ScatterDims ⟨2, ![N, C]⟩ ⟨2, ![E, 1]⟩ ⟨2, ![E, C]⟩} (hd : Row d)
    (idx : IVec ⟨2, ![E, 1]⟩ w) (e : Fin E) (f : Fin C) (v : Fin N) (g : Fin C)
    (h : d.resultIdx? (ix2 e f) idx = some (ix2 v g)) : (idx (ix2 e 0)).toInt = (v.val : Int) ∧ f = g := by
  obtain ⟨uw, iw, sd, iv, wf⟩ := d
  obtain ⟨h1, h2, h3, h4⟩ := hd
  dsimp only at h1 h2 h3 h4
  subst h1 h2 h3 h4
  exact rowDims_some wf idx e f v g h

end Cert.LibScatter
-- ==== Proof.LibNode.lean ====
/-
  Two facts about a single word and a single extended real.

  A node number as a word: a 32-bit word whose signed value is a natural number v below 100000 is not negative, so
  the wrap-around step "if the word is negative add 100000, else keep it" keeps it, and clamping its signed value
  into [0, 100000 − 1] leaves v.

  A normalising coefficient: "if 0 < d then the reciprocal square root of d else 0" is a nonnegative real for every
  extended real d. When 0 < d the reciprocal square root is 1 / √d ≥ 0 for a real d and 0 for d = +∞; otherwise the
  value is 0.
-/
import Mathlib
import Idealize.ShloMosaic.Lib.ValueIdx

namespace Cert.LibNode

open Idealize.ShloMosaic Idealize.ShloMosaic.ValueIdx

/-- A word whose signed value is a node number in range passes the wrap-around select and the clamp unchanged. -/
theorem wrap_clamp (b : BitVec 32) (v : Nat) (hv : v < 100000) (h : b.toInt = (v : Int)) :
    min (Scalar.select (IntOp.cmpi CmpIPredicate.slt b 0#32) (IntOp.addi b 100000#32) b).toInt.toNat (100000 - 1)
      = v := by
  have hlt : b.slt 0#32 = false := by
    rw [Bool.eq_false_iff]
    intro hc
    rw [BitVec.slt_iff_toInt_lt, h] at hc
    simp at hc
    omega
  have hs : IntOp.cmpi CmpIPredicate.slt b 0#32 = 0#1 := by
    unfold IntOp.cmpi
    simp only [hlt]
    rfl
  rw [hs, select_zero, h]
  simp only [Int.toNat_natCast]
  omega

/-- The guarded reciprocal square root is a nonnegative real. -/
theorem coef_nonneg (d z : EReal) (hz : z = 0) :
    0 ≤ Scalar.select (Ideal.cmp CmpFPredicate.ogt d z) (Ideal.rsqrt d) z
      ∧ Scalar.select (Ideal.cmp CmpFPredicate.ogt d z) (Ideal.rsqrt d) z ≠ ⊤ := by
  subst hz
  by_cases hpos : (0 : EReal) < d
  · have hc : Ideal.cmp CmpFPredicate.ogt d 0 = 1#1 := by
      unfold Ideal.cmp
      simp only [hpos, decide_true]
      rfl
    rw [hc, select_one]
    induction d using EReal.rec with
    | bot => exact absurd hpos (by simp)
    | top =>
      show (0 : EReal) ≤ 0 ∧ (0 : EReal) ≠ ⊤
      exact ⟨le_refl _, EReal.zero_ne_top⟩
    | coe r =>
      have hr : 0 < r := by exact_mod_cast hpos
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      exact ⟨EReal.coe_nonneg.mpr (inv_nonneg.mpr (Real.sqrt_nonneg r)), EReal.coe_ne_top _⟩
  · have hc : Ideal.cmp CmpFPredicate.ogt d 0 = 0#1 := by
      unfold Ideal.cmp
      simp only [hpos, decide_false]
      rfl
    rw [hc, select_zero]
    exact ⟨le_refl _, EReal.zero_ne_top⟩

end Cert.LibNode
-- ==== Proof.RefStages.lean ====
/-
  The reference program read at an index, stage by stage, on the extended reals.

  The program: deg = the number of edges into each node (a scatter-add of ones by destination); dinv = 1/√deg where
  deg > 0 and 0 elsewhere; coef(e) = dinv[src e] · dinv[dst e]; xw = x · W₁; msg₁(e, ·) = xw[src e, ·] · coef(e);
  agg₁ = the scatter-add of msg₁ by destination into zeros; h = max(agg₁ + b₁, 0); each row of h divided by its
  Euclidean norm clamped below; xw₂ = that · W₂; msg₂, agg₂ as before; out = agg₂ + b₂.
  Each lemma reads one stage at coordinates: a product at an entry is the sum over the contracted index, a message
  entry is the gathered entry times the two gathered coefficients, an aggregate is the exact scatter-add of its
  messages into zeros, the output entry is the aggregate's plus the bias's. The coefficient table dinv is
  nonnegative and never +inf, and a destination word whose signed value is a node number survives the
  wrap-around-and-clamp of the gather that reads it.
-/
import proofs.«110300_j7413113553701_2_alg».proof.Proof.RefRead
import proofs.«110300_j7413113553701_2_alg».proof.Proof.Spec
import proofs.«110300_j7413113553701_2_alg».proof.Proof.LibGather
import proofs.«110300_j7413113553701_2_alg».proof.Proof.LibScatter
import proofs.«110300_j7413113553701_2_alg».proof.Proof.LibNode
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first aggregate is the exact scatter-add of the first messages, by destination, into zeros. -/
theorem agg1_eq :
    val_main_v43 (F := Ideal) x0 x1 x2
      = Ideal.hostScatterAdd scatter_S100000x128_S1700000x1_S1700000x128_1_0_0_1 (val_main_v41 (F := Ideal))
          (val_main_v42 (F := Ideal) x1) (val_main_v40 (F := Ideal) x0 x1 x2) := rfl

/-- The second aggregate is the exact scatter-add of the second messages, by destination, into zeros. -/
theorem agg2_eq :
    val_main_v66 (F := Ideal) x0 x1 x2 x3 x4
      = Ideal.hostScatterAdd scatter_S100000x64_S1700000x1_S1700000x64_1_0_0_1 (val_main_v64 (F := Ideal))
          (val_main_v65 (F := Ideal) x1) (val_main_v63 (F := Ideal) x0 x1 x2 x3 x4) := rfl

/-- An output entry is the second aggregate's entry plus the second bias's. -/
theorem out_apply (v : Fin 100000) (f : Fin 64) :
    val_main_v69 (F := Ideal) x0 x1 x2 x3 x4 x5 (ix2 v f)
      = Ideal.hostScatterAdd scatter_S100000x64_S1700000x1_S1700000x64_1_0_0_1 (val_main_v64 (F := Ideal))
          (val_main_v65 (F := Ideal) x1) (val_main_v63 (F := Ideal) x0 x1 x2 x3 x4) (ix2 v f) + x5 (ix1 f) := by
  have hi : idx_main_v67 (idx_main_v68 (ix2 v f)) = ix1 f :=
    funext fun a => Fin.ext (by match a with | ⟨0, _⟩ => rfl)
  rw [val_main_v69_apply, val_main_v68_apply, val_main_v67_apply, Ideal.addf_def, hi, agg2_eq]

/-- The first aggregate's initial table is zero. -/
theorem zero128 (i : S100000x128.Idx) : val_main_v41 (F := Ideal) i = 0 := by
  rw [val_main_v41_apply, val_main_cst_8_apply, Ideal.ofBits_def, Ideal.ofBits_zero_f32]

/-- The second aggregate's initial table is zero. -/
theorem zero64 (i : S100000x64.Idx) : val_main_v64 (F := Ideal) i = 0 := by
  rw [val_main_v64_apply, val_main_cst_12_apply, Ideal.ofBits_def, Ideal.ofBits_zero_f32]

/-- A first-layer message entry: the gathered entry of x·W₁ times the two gathered coefficients. -/
theorem msg1_apply (e : Fin 1700000) (g : Fin 128) :
    val_main_v40 (F := Ideal) x0 x1 x2 (ix2 e g)
      = Host.gather gather_S100000x128_S1700000x1_S1700000x128_1_0_n_n_0_1_1128 (val_main_v30 (F := Ideal) x0 x2)
            (val_main_v36 (F := Ideal) x1) (ix2 e g)
          * (Host.gather gather_S100000_S1700000x1_S1700000_n_0_n_n_0_1_1 (val_main_v14 (F := Ideal) x1)
                (val_main_v20 (F := Ideal) x1) (ix1 e)
              * Host.gather gather_S100000_S1700000x1_S1700000_n_0_n_n_0_1_1 (val_main_v14 (F := Ideal) x1)
                (val_main_v27 (F := Ideal) x1) (ix1 e)) := by
  have hi : idx_main_v38 (idx_main_v39 (ix2 e g)) = ix1 e :=
    funext fun a => Fin.ext (by match a with | ⟨0, _⟩ => rfl)
  rw [val_main_v40_apply, Ideal.mulf_def, val_main_v39_apply, val_main_v38_apply, hi, val_main_v29_apply,
    Ideal.mulf_def]
  unfold val_main_v37 val_main_v21 val_main_v28
  rfl

/-- A second-layer message entry: the gathered entry of the second product times the two gathered coefficients. -/
theorem msg2_apply (e : Fin 1700000) (g : Fin 64) :
    val_main_v63 (F := Ideal) x0 x1 x2 x3 x4 (ix2 e g)
      = Host.gather gather_S100000x64_S1700000x1_S1700000x64_1_0_n_n_0_1_164 (val_main_v53 (F := Ideal) x0 x1 x2 x3 x4)
            (val_main_v59 (F := Ideal) x1) (ix2 e g)
          * (Host.gather gather_S100000_S1700000x1_S1700000_n_0_n_n_0_1_1 (val_main_v14 (F := Ideal) x1)
                (val_main_v20 (F := Ideal) x1) (ix1 e)
              * Host.gather gather_S100000_S1700000x1_S1700000_n_0_n_n_0_1_1 (val_main_v14 (F := Ideal) x1)
                (val_main_v27 (F := Ideal) x1) (ix1 e)) := by
  have hi : idx_main_v61 (idx_main_v62 (ix2 e g)) = ix1 e :=
    funext fun a => Fin.ext (by match a with | ⟨0, _⟩ => rfl)
  rw [val_main_v63_apply, Ideal.mulf_def, val_main_v62_apply, val_main_v61_apply, hi, val_main_v29_apply,
    Ideal.mulf_def]
  unfold val_main_v60 val_main_v21 val_main_v28
  rfl

/-- The coefficient table (1/√deg where deg > 0, else 0) is nonnegative and never +inf. -/
theorem coef_ok (u : S100000.Idx) :
    0 ≤ val_main_v14 (F := Ideal) x1 u ∧ val_main_v14 (F := Ideal) x1 u ≠ ⊤ := by
  rw [val_main_v14_apply, val_main_v12_apply, val_main_v13_apply, val_main_v11_apply, val_main_cst_1_apply,
    val_main_call0_v1_apply, val_main_call0_v0_apply, val_main_cst_2_apply, Ideal.ofBits_def,
    Ideal.hostUnary_rsqrt_def]
  generalize val_main_v10 (F := Ideal) x1 u = dg
  exact Cert.LibNode.coef_nonneg dg _ Ideal.ofBits_zero_f32

/-- A destination word whose signed value is a node number: the wrapped column read by the coefficient gather,
    clamped into the node range, is that node number. -/
theorem dst_wrap (e : Fin 1700000) (v : Fin 100000)
    (h : (val_main_v42 (F := Ideal) x1 (ix2 e 0)).toInt = (v.val : Int)) :
    min (val_main_v27 (F := Ideal) x1 (ix2 e 0)).toInt.toNat (100000 - 1) = v.val := by
  have h42 : idx_main_v42 (ix2 e (0 : Fin 1)) = ix1 e :=
    funext fun a => Fin.ext (by match a with | ⟨0, _⟩ => rfl)
  have h27 : idx_main_v27 (ix2 e (0 : Fin 1)) = ix1 e :=
    funext fun a => Fin.ext (by match a with | ⟨0, _⟩ => rfl)
  rw [val_main_v42_apply, h42] at h
  rw [val_main_v27_apply, h27, val_main_v26_apply, val_main_v23_apply, val_main_v25_apply, val_main_v22_apply,
    val_main_c_4_apply, val_main_v24_apply, val_main_c_5_apply]
  exact Cert.LibNode.wrap_clamp _ v.val v.isLt h

/-- The wrapped source column is spelt three times in the program; the three are one term. -/
theorem src_cols :
    val_main_v20 (F := Ideal) x1 = val_main_v36 (F := Ideal) x1
      ∧ val_main_v59 (F := Ideal) x1 = val_main_v36 (F := Ideal) x1 := ⟨rfl, rfl⟩

/-- The destination column is spelt twice in the program; the two are one term. -/
theorem dst_cols : val_main_v65 (F := Ideal) x1 = val_main_v42 (F := Ideal) x1 := rfl

/-- An entry of x·W₁ is the sum over the 128 input features. -/
theorem xw_apply (u : Fin 100000) (g : Fin 128) :
    val_main_v30 (F := Ideal) x0 x2 (ix2 u g) = ∑ k : Fin 128, x0 (ix2 u k) * x2 (ix2 k g) := by
  rw [val_main_v30_apply]
  refine Finset.sum_congr rfl fun k _ => ?_
  have hl : lidx_main_v30 (ix2 u g) k = ix2 u k :=
    funext fun a => Fin.ext (by match a with | ⟨0, _⟩ => rfl | ⟨1, _⟩ => rfl)
  have hr : ridx_main_v30 (ix2 u g) k = ix2 k g :=
    funext fun a => Fin.ext (by match a with | ⟨0, _⟩ => rfl | ⟨1, _⟩ => rfl)
  rw [hl, hr]

/-- An entry of the second product is the sum over the 128 hidden features of the normalised row times W₂. -/
theorem xw2_apply (u : Fin 100000) (g : Fin 64) :
    val_main_v53 (F := Ideal) x0 x1 x2 x3 x4 (ix2 u g)
      = ∑ k : Fin 128, val_main_v52 (F := Ideal) x0 x1 x2 x3 (ix2 u k) * x4 (ix2 k g) := by
  rw [val_main_v53_apply]
  refine Finset.sum_congr rfl fun k _ => ?_
  have hl : lidx_main_v53 (ix2 u g) k = ix2 u k :=
    funext fun a => Fin.ext (by match a with | ⟨0, _⟩ => rfl | ⟨1, _⟩ => rfl)
  have hr : ridx_main_v53 (ix2 u g) k = ix2 k g :=
    funext fun a => Fin.ext (by match a with | ⟨0, _⟩ => rfl | ⟨1, _⟩ => rfl)
  rw [hl, hr]

/-- A first-layer activation entry: the aggregate's entry plus the bias's, clipped below at the zero word. -/
theorem h_apply (u : Fin 100000) (k : Fin 128) :
    val_main_v47 (F := Ideal) x0 x1 x2 x3 (ix2 u k)
      = Cert.Gcn.relu0 (val_main_v43 (F := Ideal) x0 x1 x2 (ix2 u k)) (x3 (ix1 k)) := by
  unfold Cert.Gcn.relu0
  have hi : idx_main_v44 (idx_main_v45 (ix2 u k)) = ix1 k :=
    funext fun a => Fin.ext (by match a with | ⟨0, _⟩ => rfl)
  rw [val_main_v47_apply, val_main_v46_apply, val_main_v45_apply, val_main_v44_apply, hi, val_main_call1_v0_apply,
    val_main_call1_cst_apply, Ideal.maximumf_def, Ideal.addf_def, Ideal.ofBits_def]

/-- A row's sum of squares: the host's row sum starts from the zero word, which is 0. -/
theorem sumsq_apply (u : Fin 100000) :
    val_main_call2_v1 (F := Ideal) x0 x1 x2 x3 (ix1 u)
      = ∑ f : Fin 128, Cert.Gcn.relu0 (val_main_v43 (F := Ideal) x0 x1 x2 (ix2 u f)) (x3 (ix1 f))
          * Cert.Gcn.relu0 (val_main_v43 (F := Ideal) x0 x1 x2 (ix2 u f)) (x3 (ix1 f)) := by
  rw [val_main_call2_v1_apply, val_main_call2_cst_apply, Ideal.ofBits_def, Ideal.ofBits_zero_f32, zero_add]
  refine Finset.sum_congr rfl fun f _ => ?_
  have hi : idx_main_call2_v1 (ix1 u) f = ix2 u f :=
    funext fun a => Fin.ext (by match a with | ⟨0, _⟩ => rfl | ⟨1, _⟩ => rfl)
  rw [hi, val_main_call2_v0_apply, Ideal.mulf_def, h_apply]

/-- A normalised activation entry: the row of activations divided by its Euclidean norm clamped below. -/
theorem unit_apply (u : Fin 100000) (k : Fin 128) :
    val_main_v52 (F := Ideal) x0 x1 x2 x3 (ix2 u k)
      = Cert.Gcn.rowUnit (fun k' => Cert.Gcn.relu0 (val_main_v43 (F := Ideal) x0 x1 x2 (ix2 u k')) (x3 (ix1 k'))) k := by
  unfold Cert.Gcn.rowUnit
  have h1 : idx_main_call2_v2 (idx_main_v51 (ix2 u k)) = ix1 u :=
    funext fun a => Fin.ext (by match a with | ⟨0, _⟩ => rfl)
  rw [val_main_v52_apply, Ideal.hostDivf_def, val_main_v51_apply, val_main_v50_apply, Ideal.maximumf_def,
    val_main_v48_apply, Ideal.hostUnary_sqrt_def, val_main_call2_v2_apply, h1, sumsq_apply, val_main_v49_apply,
    val_main_cst_9_apply, Ideal.ofBits_def, h_apply]

end Cert.ReferenceIdeal.Stages

end
-- ==== Proof.Layer.lean ====
/-
  One graph-convolution layer, two ways.

  Every edge `e` carries a source node and a destination node; the layer gathers, for each edge, the source node's row
  of a feature array `a`, and adds the gathered rows into the rows the destination nodes name. The normalisation weighs
  edge `e` by the product of the two end nodes' coefficients `dv`.
  One program applies the weights edge by edge before the sum: row `v` of its result is the sum, over the edges landing
  on `v`, of `a(src e) · (dv(src e) · dv(dst e))`. The other scales each node's row of `a` by the node's own
  coefficient once, sums the gathered rows unweighted, and multiplies row `v` of the sum by `dv v` afterwards.
  They agree: an edge lands on `v` only if its destination number is `v` exactly (in range, so neither wrapped nor
  clamped when it is gathered by), hence `dv(dst e) = dv v` is one common factor of every term of the sum, and a factor
  that is nonnegative and not +inf distributes over a sum of extended reals whatever the terms are.
-/
import proofs.«110300_j7413113553701_2_alg».proof.Proof.Spec
import proofs.«110300_j7413113553701_2_alg».proof.Proof.LibGather
import proofs.«110300_j7413113553701_2_alg».proof.Proof.LibScatter

noncomputable section

namespace Cert.Gcn

open Idealize.ShloMosaic Idealize.ShloMosaic.ValueIdx

/-- The layer's two forms agree at entry `(v, f)`.
    `xs` is `a` with each row scaled by its node's coefficient (`hxs`); `upd` is the edge-weighted gathered rows
    (`hupd`); `bd` holds the destination numbers the sum is indexed by, `ws` and `wd` the source and destination
    numbers as the gathers read them, and `hwd` says a destination number in range is gathered by unchanged. -/
theorem layer {N C E : Nat} (hN : 0 < N)
    {ds : ScatterDims ⟨2, ![N, C]⟩ ⟨2, ![E, 1]⟩ ⟨2, ![E, C]⟩} (hds : Cert.LibScatter.Row ds)
    {dg : GatherDims ⟨2, ![N, C]⟩ ⟨2, ![E, 1]⟩ ⟨2, ![E, C]⟩} (hdg : Cert.LibGather.Row dg)
    {d1 : GatherDims ⟨1, ![N]⟩ ⟨2, ![E, 1]⟩ ⟨1, ![E]⟩} (hd1 : Cert.LibGather.Flat d1)
    (a xs : (⟨2, ![N, C]⟩ : Shape).Idx → EReal) (dv : (⟨1, ![N]⟩ : Shape).Idx → EReal)
    (hdv : ∀ u, 0 ≤ dv u ∧ dv u ≠ ⊤)
    (z : (⟨2, ![N, C]⟩ : Shape).Idx → EReal) (hz : ∀ i, z i = 0)
    (bd ws wd : IVec ⟨2, ![E, 1]⟩ 32)
    (hwd : ∀ (e : Fin E) (v : Fin N), (bd (ix2 e 0)).toInt = (v.val : Int) →
      min (wd (ix2 e 0)).toInt.toNat (N - 1) = v.val)
    (hxs : ∀ (u : Fin N) (g : Fin C), xs (ix2 u g) = a (ix2 u g) * dv (ix1 u))
    (upd : (⟨2, ![E, C]⟩ : Shape).Idx → EReal)
    (hupd : ∀ (e : Fin E) (g : Fin C), upd (ix2 e g)
      = Host.gather dg a ws (ix2 e g) * (Host.gather d1 dv ws (ix1 e) * Host.gather d1 dv wd (ix1 e)))
    (v : Fin N) (f : Fin C) :
    Ideal.hostScatterAdd ds z bd (Host.gather dg xs ws) (ix2 v f) * dv (ix1 v)
      = Ideal.hostScatterAdd ds z bd upd (ix2 v f) := by
  unfold Ideal.hostScatterAdd
  rw [hz, zero_add, zero_add, sum_mul_nonneg _ _ (hdv _).1 (hdv _).2]
  refine Finset.sum_congr rfl fun j hj => ?_
  obtain ⟨e, g, rfl⟩ : ∃ (e : Fin E) (g : Fin C), j = ix2 e g := ⟨j 0, j 1, eq_ix2 j⟩
  obtain ⟨hv, -⟩ := Cert.LibScatter.row_some hds bd e g v f (Finset.mem_filter.mp hj).2
  have hfin : (⟨min (wd (ix2 e 0)).toInt.toNat (N - 1), by omega⟩ : Fin N) = v := Fin.ext (hwd e v hv)
  rw [hupd, Cert.LibGather.row_apply hN hdg, hxs, Cert.LibGather.row_apply hN hdg,
    Cert.LibGather.flat_apply hN hd1, Cert.LibGather.flat_apply hN hd1, hfin, mul_assoc]

end Cert.Gcn

end
-- ==== Proof.TwoLayers.lean ====
/-
  Two stacked graph-convolution layers, two ways, agree entry by entry.

  The first layer's two forms agree by `Cert.Gcn.layer` (the node's coefficient moved across its neighbourhood sum).
  Between the layers both programs add the bias, clip below at zero, divide each row by its clamped Euclidean norm and
  multiply by the second weight matrix: the same function of the first layer's result, so the second layer's input
  arrays agree up to the row scale, and the second layer's two forms agree by `Cert.Gcn.layer` again. Adding the last
  bias to equal sums gives equal results.
-/
import proofs.«110300_j7413113553701_2_alg».proof.Proof.Layer

noncomputable section

namespace Cert.Gcn

open Idealize.ShloMosaic Idealize.ShloMosaic.ValueIdx

/-- Entry `(v, f)` of the scaled-late program's result is that of the weighted-early program's.
    Each program's two neighbourhood sums enter as arrays (`agg1K`, `agg2K` scaled late; `agg1R`, `agg2R` weighted early)
    with the equation saying which sum each is; between the layers `hxs2` and `ha2` state the second layer's input rows
    over the first layer's results. -/
theorem two_layers {N E : Nat} (hN : 0 < N)
    {ds1 : ScatterDims ⟨2, ![N, 128]⟩ ⟨2, ![E, 1]⟩ ⟨2, ![E, 128]⟩} (hds1 : Cert.LibScatter.Row ds1)
    {dg1 : GatherDims ⟨2, ![N, 128]⟩ ⟨2, ![E, 1]⟩ ⟨2, ![E, 128]⟩} (hdg1 : Cert.LibGather.Row dg1)
    {ds2 : ScatterDims ⟨2, ![N, 64]⟩ ⟨2, ![E, 1]⟩ ⟨2, ![E, 64]⟩} (hds2 : Cert.LibScatter.Row ds2)
    {dg2 : GatherDims ⟨2, ![N, 64]⟩ ⟨2, ![E, 1]⟩ ⟨2, ![E, 64]⟩} (hdg2 : Cert.LibGather.Row dg2)
    {d1 : GatherDims ⟨1, ![N]⟩ ⟨2, ![E, 1]⟩ ⟨1, ![E]⟩} (hd1 : Cert.LibGather.Flat d1)
    (dv : (⟨1, ![N]⟩ : Shape).Idx → EReal) (hdv : ∀ u, 0 ≤ dv u ∧ dv u ≠ ⊤)
    (z1 : (⟨2, ![N, 128]⟩ : Shape).Idx → EReal) (hz1 : ∀ i, z1 i = 0)
    (z2 : (⟨2, ![N, 64]⟩ : Shape).Idx → EReal) (hz2 : ∀ i, z2 i = 0)
    (bd ws wd : IVec ⟨2, ![E, 1]⟩ 32)
    (hwd : ∀ (e : Fin E) (v : Fin N), (bd (ix2 e 0)).toInt = (v.val : Int) →
      min (wd (ix2 e 0)).toInt.toNat (N - 1) = v.val)
    (a1 xs1 : (⟨2, ![N, 128]⟩ : Shape).Idx → EReal)
    (hxs1 : ∀ (u : Fin N) (g : Fin 128), xs1 (ix2 u g) = a1 (ix2 u g) * dv (ix1 u))
    (upd1 : (⟨2, ![E, 128]⟩ : Shape).Idx → EReal)
    (hupd1 : ∀ (e : Fin E) (g : Fin 128), upd1 (ix2 e g)
      = Host.gather dg1 a1 ws (ix2 e g) * (Host.gather d1 dv ws (ix1 e) * Host.gather d1 dv wd (ix1 e)))
    (agg1K agg1R : (⟨2, ![N, 128]⟩ : Shape).Idx → EReal)
    (hK1 : agg1K = Ideal.hostScatterAdd ds1 z1 bd (Host.gather dg1 xs1 ws))
    (hR1 : agg1R = Ideal.hostScatterAdd ds1 z1 bd upd1)
    (b1 : (⟨1, ![128]⟩ : Shape).Idx → EReal) (w2 : (⟨2, ![128, 64]⟩ : Shape).Idx → EReal)
    (a2 xs2 : (⟨2, ![N, 64]⟩ : Shape).Idx → EReal)
    (hxs2 : ∀ (u : Fin N) (g : Fin 64), xs2 (ix2 u g)
      = (∑ k : Fin 128, rowUnit (fun k' => relu0 (agg1K (ix2 u k') * dv (ix1 u)) (b1 (ix1 k'))) k
          * w2 (ix2 k g)) * dv (ix1 u))
    (ha2 : ∀ (u : Fin N) (g : Fin 64), a2 (ix2 u g)
      = ∑ k : Fin 128, rowUnit (fun k' => relu0 (agg1R (ix2 u k')) (b1 (ix1 k'))) k * w2 (ix2 k g))
    (upd2 : (⟨2, ![E, 64]⟩ : Shape).Idx → EReal)
    (hupd2 : ∀ (e : Fin E) (g : Fin 64), upd2 (ix2 e g)
      = Host.gather dg2 a2 ws (ix2 e g) * (Host.gather d1 dv ws (ix1 e) * Host.gather d1 dv wd (ix1 e)))
    (agg2K agg2R : (⟨2, ![N, 64]⟩ : Shape).Idx → EReal)
    (hK2 : agg2K = Ideal.hostScatterAdd ds2 z2 bd (Host.gather dg2 xs2 ws))
    (hR2 : agg2R = Ideal.hostScatterAdd ds2 z2 bd upd2)
    (b2 : (⟨1, ![64]⟩ : Shape).Idx → EReal) (v : Fin N) (f : Fin 64) :
    agg2K (ix2 v f) * dv (ix1 v) + b2 (ix1 f) = agg2R (ix2 v f) + b2 (ix1 f) := by
  subst hK1 hR1 hK2 hR2
  have h1 : ∀ (u : Fin N) (k : Fin 128),
      Ideal.hostScatterAdd ds1 z1 bd (Host.gather dg1 xs1 ws) (ix2 u k) * dv (ix1 u)
        = Ideal.hostScatterAdd ds1 z1 bd upd1 (ix2 u k) :=
    fun u k => layer hN hds1 hdg1 hd1 a1 xs1 dv hdv z1 hz1 bd ws wd hwd hxs1 upd1 hupd1 u k
  have hx : ∀ (u : Fin N) (g : Fin 64), xs2 (ix2 u g) = a2 (ix2 u g) * dv (ix1 u) := by
    intro u g
    rw [hxs2, ha2]
    simp only [h1]
  rw [layer hN hds2 hdg2 hd1 a2 xs2 dv hdv z2 hz2 bd ws wd hwd hx upd2 hupd2 v f]

end Cert.Gcn

end
-- ==== Proof.Bridge.lean ====
/-
  The reference's result is the kernel's, entry by entry.

  The kernel scales each node's rows by the node's coefficient inside its regions and sums gathered rows unweighted;
  the reference weighs every edge by the product of its end nodes' coefficients. `Cert.Gcn.two_layers` says the two
  agree once each program's stages are read at an index: the regions' closed forms and the host stretches on the
  kernel's side, the host operations one at a time on the reference's. The node numbers and the coefficients are the
  same functions of the edge array in both programs, and the coefficients are nonnegative and never +inf (a reciprocal
  square root of a positive count, or zero), which is all the distributive law asks: no input needs to be finite.
-/
import proofs.«110300_j7413113553701_2_alg».proof.Proof.KernelArrays
import proofs.«110300_j7413113553701_2_alg».proof.Proof.RefStages
import proofs.«110300_j7413113553701_2_alg».proof.Proof.TwoLayers

set_option maxRecDepth 16384

noncomputable section

namespace Cert.Proof.Bridge

open Cert.KernelIdeal Cert.KernelIdeal.Gen Cert.KernelIdeal.Fold
open Idealize.ShloMosaic Idealize.ShloMosaic.TcCoe Idealize.SL.Sem Idealize.ShloMosaic.ValueIdx

variable (m : (ℓ : Loc nD τ sig) → Buf (Elt Ideal) ℓ) (ρ : Dev nD → PrngReg)

/-- The reference's second neighbourhood sum, indexed by the same destination column as its first. -/
theorem agg2R_eq (c : Dev nD) :
    Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      = Ideal.hostScatterAdd Cert.ReferenceIdeal.scatter_S100000x64_S1700000x1_S1700000x64_1_0_0_1 (Cert.ReferenceIdeal.Read.val_main_v64 (F := Ideal))
          (Cert.ReferenceIdeal.Read.val_main_v42 (F := Ideal) (m ((c.tc : Thread nD τ).loc main_arg1)))
          (Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  rw [Cert.ReferenceIdeal.Stages.agg2_eq, Cert.ReferenceIdeal.Stages.dst_cols]

/-- The reference's result entry: its second neighbourhood sum's entry plus the bias. -/
theorem outR_apply (c : Dev nD) (v : Fin 100000) (f : Fin 64) :
    Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 v f)
      = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 v f) + argB2 m c (ix1 f) := by
  rw [Cert.ReferenceIdeal.Stages.out_apply, ← Cert.ReferenceIdeal.Stages.agg2_eq]

/-- The first layer's rows: the kernel's are the reference's feature transform scaled by the coefficient. -/
theorem hxs1 (c : Dev nD) (u : Fin 100000) (g : Fin 128) :
    xs1K m ρ c (ix2 u g) = Cert.ReferenceIdeal.Read.val_main_v30 (F := Ideal) (m ((c.tc : Thread nD τ).loc main_arg0)) (m ((c.tc : Thread nD τ).loc main_arg2)) (ix2 u g) * coefK m c (ix1 u) := by
  rw [xs1K_apply m ρ c u g, Cert.ReferenceIdeal.Stages.xw_apply]

/-- The reference's first edge-weighted rows. -/
theorem hupd1 (c : Dev nD) (e : Fin 1700000) (g : Fin 128) :
    Cert.ReferenceIdeal.Read.val_main_v40 (F := Ideal) (m ((c.tc : Thread nD τ).loc main_arg0)) (m ((c.tc : Thread nD τ).loc main_arg1)) (m ((c.tc : Thread nD τ).loc main_arg2)) (ix2 e g)
      = Host.gather Cert.ReferenceIdeal.gather_S100000x128_S1700000x1_S1700000x128_1_0_n_n_0_1_1128
          (Cert.ReferenceIdeal.Read.val_main_v30 (F := Ideal) (m ((c.tc : Thread nD τ).loc main_arg0)) (m ((c.tc : Thread nD τ).loc main_arg2))) (Cert.ReferenceIdeal.Read.val_main_v36 (F := Ideal) (m ((c.tc : Thread nD τ).loc main_arg1))) (ix2 e g)
        * (Host.gather Cert.ReferenceIdeal.gather_S100000_S1700000x1_S1700000_n_0_n_n_0_1_1 (coefK m c) (Cert.ReferenceIdeal.Read.val_main_v36 (F := Ideal) (m ((c.tc : Thread nD τ).loc main_arg1))) (ix1 e)
          * Host.gather Cert.ReferenceIdeal.gather_S100000_S1700000x1_S1700000_n_0_n_n_0_1_1 (coefK m c) (Cert.ReferenceIdeal.Read.val_main_v27 (F := Ideal) (m ((c.tc : Thread nD τ).loc main_arg1))) (ix1 e)) := by
  rw [Cert.ReferenceIdeal.Stages.msg1_apply, (Cert.ReferenceIdeal.Stages.src_cols (m ((c.tc : Thread nD τ).loc main_arg1))).1]

/-- The reference's second-layer input rows, over its first neighbourhood sum. -/
theorem ha2 (c : Dev nD) (u : Fin 100000) (g : Fin 64) :
    Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 u g)
      = ∑ k : Fin 128, Cert.Gcn.rowUnit (fun k' => Cert.Gcn.relu0
            (Cert.ReferenceIdeal.Read.val_main_v43 (F := Ideal) (m ((c.tc : Thread nD τ).loc main_arg0)) (m ((c.tc : Thread nD τ).loc main_arg1)) (m ((c.tc : Thread nD τ).loc main_arg2)) (ix2 u k')) (argB1 m c (ix1 k'))) k * argW2 m c (ix2 k g) := by
  rw [Cert.ReferenceIdeal.Stages.xw2_apply]
  simp only [Cert.ReferenceIdeal.Stages.unit_apply]

/-- The reference's second edge-weighted rows. -/
theorem hupd2 (c : Dev nD) (e : Fin 1700000) (g : Fin 64) :
    Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 e g)
      = Host.gather Cert.ReferenceIdeal.gather_S100000x64_S1700000x1_S1700000x64_1_0_n_n_0_1_164
          (Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Cert.ReferenceIdeal.Read.val_main_v36 (F := Ideal) (m ((c.tc : Thread nD τ).loc main_arg1))) (ix2 e g)
        * (Host.gather Cert.ReferenceIdeal.gather_S100000_S1700000x1_S1700000_n_0_n_n_0_1_1 (coefK m c) (Cert.ReferenceIdeal.Read.val_main_v36 (F := Ideal) (m ((c.tc : Thread nD τ).loc main_arg1))) (ix1 e)
          * Host.gather Cert.ReferenceIdeal.gather_S100000_S1700000x1_S1700000_n_0_n_n_0_1_1 (coefK m c) (Cert.ReferenceIdeal.Read.val_main_v27 (F := Ideal) (m ((c.tc : Thread nD τ).loc main_arg1))) (ix1 e)) := by
  rw [Cert.ReferenceIdeal.Stages.msg2_apply, (Cert.ReferenceIdeal.Stages.src_cols (m ((c.tc : Thread nD τ).loc main_arg1))).1, (Cert.ReferenceIdeal.Stages.src_cols (m ((c.tc : Thread nD τ).loc main_arg1))).2]

/-- THE EQUATION: the reference's result stage at the kernel's arguments is the kernel's result array. -/
theorem result_eq (c : Dev nD) :
    Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = W8 m ρ c (Proc.devRef .tc main_v40) := by
  funext i
  obtain ⟨v, f, rfl⟩ : ∃ (v : Fin 100000) (f : Fin 64), i = ix2 v f := ⟨i 0, i 1, eq_ix2 i⟩
  refine (outR_apply m c v f).trans (Eq.trans ?_ (outK_apply m ρ c v f).symm)
  exact (Cert.Gcn.two_layers (N := 100000) (E := 1700000) (by decide)
    (ds1 := Cert.ReferenceIdeal.scatter_S100000x128_S1700000x1_S1700000x128_1_0_0_1) ⟨rfl, rfl, rfl, rfl⟩
    (dg1 := Cert.ReferenceIdeal.gather_S100000x128_S1700000x1_S1700000x128_1_0_n_n_0_1_1128) ⟨rfl, rfl, rfl, rfl, rfl, rfl, rfl⟩
    (ds2 := Cert.ReferenceIdeal.scatter_S100000x64_S1700000x1_S1700000x64_1_0_0_1) ⟨rfl, rfl, rfl, rfl⟩
    (dg2 := Cert.ReferenceIdeal.gather_S100000x64_S1700000x1_S1700000x64_1_0_n_n_0_1_164) ⟨rfl, rfl, rfl, rfl, rfl, rfl, rfl⟩
    (d1 := Cert.ReferenceIdeal.gather_S100000_S1700000x1_S1700000_n_0_n_n_0_1_1) ⟨rfl, rfl, rfl, rfl, rfl, rfl, rfl⟩
    (coefK m c) (Cert.ReferenceIdeal.Stages.coef_ok (m ((c.tc : Thread nD τ).loc main_arg1)))
    (Cert.ReferenceIdeal.Read.val_main_v41 (F := Ideal)) Cert.ReferenceIdeal.Stages.zero128
    (Cert.ReferenceIdeal.Read.val_main_v64 (F := Ideal)) Cert.ReferenceIdeal.Stages.zero64
    (Cert.ReferenceIdeal.Read.val_main_v42 (F := Ideal) (m ((c.tc : Thread nD τ).loc main_arg1))) (Cert.ReferenceIdeal.Read.val_main_v36 (F := Ideal) (m ((c.tc : Thread nD τ).loc main_arg1))) (Cert.ReferenceIdeal.Read.val_main_v27 (F := Ideal) (m ((c.tc : Thread nD τ).loc main_arg1)))
    (Cert.ReferenceIdeal.Stages.dst_wrap (m ((c.tc : Thread nD τ).loc main_arg1)))
    (Cert.ReferenceIdeal.Read.val_main_v30 (F := Ideal) (m ((c.tc : Thread nD τ).loc main_arg0)) (m ((c.tc : Thread nD τ).loc main_arg2))) (xs1K m ρ c) (hxs1 m ρ c)
    (Cert.ReferenceIdeal.Read.val_main_v40 (F := Ideal) (m ((c.tc : Thread nD τ).loc main_arg0)) (m ((c.tc : Thread nD τ).loc main_arg1)) (m ((c.tc : Thread nD τ).loc main_arg2))) (hupd1 m c)
    (agg1K m ρ c) (Cert.ReferenceIdeal.Read.val_main_v43 (F := Ideal) (m ((c.tc : Thread nD τ).loc main_arg0)) (m ((c.tc : Thread nD τ).loc main_arg1)) (m ((c.tc : Thread nD τ).loc main_arg2))) (agg1K_eq m ρ c) (Cert.ReferenceIdeal.Stages.agg1_eq (m ((c.tc : Thread nD τ).loc main_arg0)) (m ((c.tc : Thread nD τ).loc main_arg1)) (m ((c.tc : Thread nD τ).loc main_arg2)))
    (argB1 m c) (argW2 m c)
    (Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (xs2K m ρ c) (xs2K_apply m ρ c) (ha2 m c)
    (Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (hupd2 m c)
    (agg2K m ρ c) (Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (agg2K_eq m ρ c) (agg2R_eq m c)
    (argB2 m c) v f).symm

end Cert.Proof.Bridge

end
-- ==== Proof.lean ====
/-
  The kernel — a two-layer graph convolution whose dense parts are three tiled regions, the gathers and neighbourhood
  sums left to the host — against its reference, on the extended reals.

  A node's coefficient is the reciprocal square root of the number of edges landing on it (self loops included), and
  an edge's weight the product of its two end nodes' coefficients. The reference weighs every gathered row by its
  edge's weight before summing the rows that land on a node. The kernel scales each node's row by that node's
  coefficient once, inside the region that computes the row; sums the gathered rows unweighted; and multiplies the
  sum by the destination node's coefficient inside the next region. The two agree because every edge landing on a
  node has that node as its destination, so the destination's coefficient is a common factor of the whole sum, and a
  factor that is nonnegative and not +inf distributes over any sum of extended reals. Between the layers both
  programs add the bias, clip at zero, divide each row by its clamped Euclidean norm and multiply by the second
  weight matrix — the same function, read at the same float words. So the claim holds for every input, the edge
  array's integers unconstrained: an edge whose destination is out of range is dropped by both sums, and a source
  number is wrapped and clamped by both gathers alike.

  The three frames: the two kernels' are the regions' launches over their class of bodies; the reference's is its
  run with the result forgotten. The idealization rewrote no operation, so `preserves` asks nothing.
-/
import proofs.«110300_j7413113553701_2_alg».proof.Defs
import proofs.«110300_j7413113553701_2_alg».proof.Proof.Gen.Kernel
import proofs.«110300_j7413113553701_2_alg».proof.Proof.Gen.Kernel.Skeleton
import proofs.«110300_j7413113553701_2_alg».proof.Proof.Gen.Kernel.Launch
import proofs.«110300_j7413113553701_2_alg».proof.Proof.Gen.Kernel.Points
import proofs.«110300_j7413113553701_2_alg».proof.Proof.Gen.Kernel.Frame
import proofs.«110300_j7413113553701_2_alg».proof.Proof.Gen.KernelIdeal
import proofs.«110300_j7413113553701_2_alg».proof.Proof.Gen.KernelIdeal.Skeleton
import proofs.«110300_j7413113553701_2_alg».proof.Proof.Gen.KernelIdeal.Launch
import proofs.«110300_j7413113553701_2_alg».proof.Proof.Gen.KernelIdeal.Points
import proofs.«110300_j7413113553701_2_alg».proof.Proof.Gen.KernelIdeal.Frame
import proofs.«110300_j7413113553701_2_alg».proof.Proof.Gen.ReferenceIdeal
import proofs.«110300_j7413113553701_2_alg».proof.Proof.Gen.Pre_finite_inputs
import proofs.«110300_j7413113553701_2_alg».proof.Proof.RefRun
import proofs.«110300_j7413113553701_2_alg».proof.Proof.RefRead
import proofs.«110300_j7413113553701_2_alg».proof.Proof.KernelRun
import proofs.«110300_j7413113553701_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the reference's result is the kernel's result
    array, entry by entry. -/
theorem algebraic : Cert.algebraic_KernelIdeal_ReferenceIdeal := by
  intro m ρ m' ρ' _ hagree
  refine ⟨fun c => Cert.KernelIdeal.Gen.W8 m ρ c (Proc.devRef .tc Cert.KernelIdeal.main_v40),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2.1, (hagree c).2.2.2.1,
    (hagree c).2.2.2.2.1, (hagree c).2.2.2.2.2]
  exact Cert.Proof.Bridge.result_eq m ρ c

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
